-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x128 : Shape := ⟨2, ![64, 128]⟩
abbrev S128 : Shape := ⟨1, ![128]⟩
abbrev S128x128 : Shape := ⟨2, ![128, 128]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x64 .f32) (main_arg1 : IVec S1600000 32) (main_arg2 : IVec S1600000 32) (main_arg3 : FVec F S64x128 .f32) (main_arg4 : FVec F S128 .f32) (main_arg5 : FVec F S128x128 .f32) (main_arg6 : FVec F S128 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S100000x64 : Shape := ⟨2, ![100000, 64]⟩
abbrev S1600000 : Shape := ⟨1, ![1600000]⟩
abbrev S64x128 : Shape := ⟨2, ![64, 128]⟩
abbrev S128 : Shape := ⟨1, ![128]⟩
abbrev S128x128 : Shape := ⟨2, ![128, 128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x128 : Shape := ⟨2, ![1, 128]⟩
abbrev S100000x128 : Shape := ⟨2, ![100000, 128]⟩
abbrev S5000x64 : Shape := ⟨2, ![5000, 64]⟩
abbrev S5000x1 : Shape := ⟨2, ![5000, 1]⟩
abbrev S5000x128 : Shape := ⟨2, ![5000, 128]⟩
abbrev S1600000x128 : Shape := ⟨2, ![1600000, 128]⟩

abbrev nBuf : Space → Nat
  | .hbm => 67
  | .vmem => 16
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S1600000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x64, .f32⟩
  | .hbm, ⟨31, _⟩ => ⟨S100000x64, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x64, .f32⟩
  | .hbm, ⟨41, _⟩ => ⟨S_, .f32⟩
  | .hbm, ⟨42, _⟩ => ⟨S100000x64, .f32⟩
  | .hbm, ⟨43, _⟩ => ⟨S1600000x1, .i32⟩
  | .hbm, ⟨44, _⟩ => ⟨S100000x64, .f32⟩
  | .hbm, ⟨45, _⟩ => ⟨S100000x1, .f32⟩
  | .hbm, ⟨46, _⟩ => ⟨S1x128, .f32⟩
  | .hbm, ⟨47, _⟩ => ⟨S100000x128, .f32⟩
  | .hbm, ⟨48, _⟩ => ⟨S100000x1, .f32⟩
  | .hbm, ⟨49, _⟩ => ⟨S100000x128, .f32⟩
  | .hbm, ⟨50, _⟩ => ⟨S100000x128, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x128, .f32⟩
  | .hbm, ⟨60, _⟩ => ⟨S_, .f32⟩
  | .hbm, ⟨61, _⟩ => ⟨S100000x128, .f32⟩
  | .hbm, ⟨62, _⟩ => ⟨S1600000x1, .i32⟩
  | .hbm, ⟨63, _⟩ => ⟨S100000x128, .f32⟩
  | .hbm, ⟨64, _⟩ => ⟨S100000x1, .f32⟩
  | .hbm, ⟨65, _⟩ => ⟨S1x128, .f32⟩
  | .hbm, ⟨66, _⟩ => ⟨S100000x128, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S64x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x1, .f32⟩
  | .local _ .vmem, ⟨11, _⟩ => ⟨S5000x1, .f32⟩
  | .local _ .vmem, ⟨12, _⟩ => ⟨S128x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_cst_3 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_4 : Ref sig .tc := ⟨.hbm, 24, rfl⟩
abbrev main_call1_v0 : Ref sig .tc := ⟨.hbm, 25, rfl⟩
abbrev main_call1_v1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_5 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_6 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_7 : Ref sig .tc := ⟨.hbm, 51, rfl⟩
abbrev main_v31 : Ref sig .tc := ⟨.hbm, 52, rfl⟩
abbrev main_v32 : Ref sig .tc := ⟨.hbm, 53, rfl⟩
abbrev main_c_8 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_9 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  shapeCasts_S100000_S100000x1 : S100000.ShapeCasts S100000x1
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  shapeCasts_S5000x128_S5000x128 : S5000x128.ShapeCasts S5000x128
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x128_S5000x128_1_0_0_1_n_n_wf : DotDims.WF S5000x64 S64x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v24) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x128 : Shape := ⟨2, ![64, 128]⟩
abbrev S128 : Shape := ⟨1, ![128]⟩
abbrev S128x128 : Shape := ⟨2, ![128, 128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S100000x128 : Shape := ⟨2, ![100000, 128]⟩
abbrev S1x128 : Shape := ⟨2, ![1, 128]⟩
abbrev S1600000x128 : Shape := ⟨2, ![1600000, 128]⟩

abbrev nBuf : Space → Nat
  | .hbm => 83
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S1600000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x64, .f32⟩
  | .hbm, ⟨31, _⟩ => ⟨S100000x64, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x64, .f32⟩
  | .hbm, ⟨41, _⟩ => ⟨S_, .f32⟩
  | .hbm, ⟨42, _⟩ => ⟨S100000x64, .f32⟩
  | .hbm, ⟨43, _⟩ => ⟨S1600000x1, .i32⟩
  | .hbm, ⟨44, _⟩ => ⟨S100000x64, .f32⟩
  | .hbm, ⟨45, _⟩ => ⟨S100000x1, .f32⟩
  | .hbm, ⟨46, _⟩ => ⟨S100000x64, .f32⟩
  | .hbm, ⟨47, _⟩ => ⟨S100000x64, .f32⟩
  | .hbm, ⟨48, _⟩ => ⟨S100000x128, .f32⟩
  | .hbm, ⟨49, _⟩ => ⟨S1x128, .f32⟩
  | .hbm, ⟨50, _⟩ => ⟨S100000x128, .f32⟩
  | .hbm, ⟨51, _⟩ => ⟨S100000x128, .f32⟩
  | .hbm, ⟨52, _⟩ => ⟨S_, .f32⟩
  | .hbm, ⟨53, _⟩ => ⟨S_, .f32⟩
  | .hbm, ⟨54, _⟩ => ⟨S100000x128, .f32⟩
  | .hbm, ⟨55, _⟩ => ⟨S100000x128, .i1⟩
  | .hbm, ⟨56, _⟩ => ⟨S_, .f32⟩
  | .hbm, ⟨57, _⟩ => ⟨S100000x128, .f32⟩
  | .hbm, ⟨58, _⟩ => ⟨S100000x128, .f32⟩
  | .hbm, ⟨59, _⟩ => ⟨S100000x128, .f32⟩
  | .hbm, ⟨60, _⟩ => ⟨S100000x1, .f32⟩
  | .hbm, ⟨61, _⟩ => ⟨S100000x128, .f32⟩
  | .hbm, ⟨62, _⟩ => ⟨S100000x128, .f32⟩
  | .hbm, ⟨63, _⟩ => ⟨S_, .i32⟩
  | .hbm, ⟨64, _⟩ => ⟨S1600000, .i32⟩
  | .hbm, ⟨65, _⟩ => ⟨S1600000, .i1⟩
  | .hbm, ⟨66, _⟩ => ⟨S_, .i32⟩
  | .hbm, ⟨67, _⟩ => ⟨S1600000, .i32⟩
  | .hbm, ⟨68, _⟩ => ⟨S1600000, .i32⟩
  | .hbm, ⟨69, _⟩ => ⟨S1600000, .i32⟩
  | .hbm, ⟨70, _⟩ => ⟨S1600000x1, .i32⟩
  | .hbm, ⟨71, _⟩ => ⟨S1600000x128, .f32⟩
  | .hbm, ⟨72, _⟩ => ⟨S_, .f32⟩
  | .hbm, ⟨73, _⟩ => ⟨S100000x128, .f32⟩
  | .hbm, ⟨74, _⟩ => ⟨S1600000x1, .i32⟩
  | .hbm, ⟨75, _⟩ => ⟨S100000x128, .f32⟩
  | .hbm, ⟨76, _⟩ => ⟨S100000x1, .f32⟩
  | .hbm, ⟨77, _⟩ => ⟨S100000x128, .f32⟩
  | .hbm, ⟨78, _⟩ => ⟨S100000x128, .f32⟩
  | .hbm, ⟨79, _⟩ => ⟨S100000x128, .f32⟩
  | .hbm, ⟨80, _⟩ => ⟨S1x128, .f32⟩
  | .hbm, ⟨81, _⟩ => ⟨S100000x128, .f32⟩
  | .hbm, ⟨82, _⟩ => ⟨S100000x128, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_cst_3 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_4 : Ref sig .tc := ⟨.hbm, 24, rfl⟩
abbrev main_call1_v0 : Ref sig .tc := ⟨.hbm, 25, rfl⟩
abbrev main_call1_v1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_5 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_6 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_7 : Ref sig .tc := ⟨.hbm, 52, rfl⟩
abbrev main_call2_cst : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_c_8 : Ref sig .tc := ⟨.hbm, 63, rfl⟩
abbrev main_v36 : Ref sig .tc := ⟨.hbm, 64, rfl⟩
abbrev main_v37 : Ref sig .tc := ⟨.hbm, 65, rfl⟩
abbrev main_c_9 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_10 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  The two-layer graph convolution as ONE function of the argument arrays, stage by stage.

  With E = 1600000 edges (src[e] → dst[e]) over N = 100000 nodes:
    * invSqrtDeg idx  : node v ↦ 1 / sqrt (max 1 (the number of edges e with idx[e] = v)), the count taken as a sum of ones
                        scattered from an all-zero vector;
    * wrap idx        : an edge's endpoint with a negative value moved up by N (the index convention of the gather);
    * aggregate x s   : row v ↦ the sum over the edges e with dst[e] = v of row src[e] of (x ⊙ s), s a per-node factor,
                        rows gathered then scatter-added into zero;
    * dense a n W b   : (a ⊙ n) · W + b, n a per-node factor repeated along the row, b a bias row repeated down the rows;
    * leaky y         : y where y ≥ 0, else y times the float 0x3C23D70A.
  The whole function is dense (aggregate (leaky (dense (aggregate x …) …)) …) …, written over the reference program's own
  shape records so that the reference's run reads it back literally.
-/
import proofs.«173791_j8589935121_1_alg».proof.ReferenceIdeal

noncomputable section

namespace Cert.ReferenceIdeal.Spec

open Idealize.ShloMosaic Cert.ReferenceIdeal Cert.ReferenceIdeal.Facts₀

variable {F : FTy → Type} [FloatOps F] [Cert.ReferenceIdeal.Facts]

/-- Node v ↦ 1 / sqrt (max 1 (number of edges whose endpoint `idx` is v)). -/
def invSqrtDeg (idx : IVec S1600000 32) : FVec F S100000 .f32 :=
  Host.rsqrt (maximumf (broadcastInDim S100000 ![] bcast_S_S100000 (constant S_ .f32 0x3F800000#32))
    (Host.scatterAdd scatter_S100000_S1600000x1_S1600000_n_0_0_1
      (broadcastInDim S100000 ![] bcast_S_S100000 (constant S_ .f32 0x00000000#32))
      (broadcastInDim S1600000x1 ![0] bcast_S1600000_S1600000x1_0 idx)
      (broadcastInDim S1600000 ![] bcast_S_S1600000 (constant S_ .f32 0x3F800000#32))))

/-- A negative endpoint moved up by the number of nodes. -/
def wrap (idx : IVec S1600000 32) : IVec S1600000 32 :=
  select (cmpi .slt idx (broadcastInDim S1600000 ![] bcast_S_S1600000 (constantI S_ 32 0#32)))
    (addi idx (broadcastInDim S1600000 ![] bcast_S_S1600000 (constantI S_ 32 100000#32))) idx

/-- Rows of x ⊙ s gathered at the edges' sources and summed at their destinations (64 columns). -/
def aggregate64 (x : FVec F S100000x64 .f32) (s : FVec F S100000 .f32) (src dst : IVec S1600000 32) :
    FVec F S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 dst)
    (Host.gather gather_S100000x64_S1600000x1_S1600000x64_1_0_n_n_0_1_164
      (mulf x (broadcastInDim S100000x64 ![0, 1] bcast_S100000x1_S100000x64_0_1
        (broadcastInDim S100000x1 ![0] bcast_S100000_S100000x1_0 s)))
      (broadcastInDim S1600000x1 ![0] bcast_S1600000_S1600000x1_0 (wrap src)))

/-- The same with 128 columns. -/
def aggregate128 (x : FVec F S100000x128 .f32) (s : FVec F S100000 .f32) (src dst : IVec S1600000 32) :
    FVec F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (Host.gather gather_S100000x128_S1600000x1_S1600000x128_1_0_n_n_0_1_1128
      (mulf x (broadcastInDim S100000x128 ![0, 1] bcast_S100000x1_S100000x128_0_1
        (broadcastInDim S100000x1 ![0] bcast_S100000_S100000x1_0 s)))
      (broadcastInDim S1600000x1 ![0] bcast_S1600000_S1600000x1_0 (wrap src)))

/-- (a ⊙ n) · W + b, from 64 to 128 columns. -/
def dense64 (a : FVec F S100000x64 .f32) (n : FVec F S100000 .f32) (W : FVec F S64x128 .f32) (b : FVec F S128 .f32) :
    FVec F S100000x128 .f32 :=
  addf (Host.dotGeneral dot_S100000x64_S64x128_S100000x128_1_0_0_1_n_n none
      (mulf a (broadcastInDim S100000x64 ![0, 1] bcast_S100000x1_S100000x64_0_1
        (broadcastInDim S100000x1 ![0] bcast_S100000_S100000x1_0 n))) W)
    (broadcastInDim S100000x128 ![0, 1] bcast_S1x128_S100000x128_0_1 (broadcastInDim S1x128 ![1] bcast_S128_S1x128_1 b))

/-- (a ⊙ n) · W + b, from 128 to 128 columns. -/
def dense128 (a : FVec F S100000x128 .f32) (n : FVec F S100000 .f32) (W : FVec F S128x128 .f32) (b : FVec F S128 .f32) :
    FVec F S100000x128 .f32 :=
  addf (Host.dotGeneral dot_S100000x128_S128x128_S100000x128_1_0_0_1_n_n none
      (mulf a (broadcastInDim S100000x128 ![0, 1] bcast_S100000x1_S100000x128_0_1
        (broadcastInDim S100000x1 ![0] bcast_S100000_S100000x1_0 n))) W)
    (broadcastInDim S100000x128 ![0, 1] bcast_S1x128_S100000x128_0_1 (broadcastInDim S1x128 ![1] bcast_S128_S1x128_1 b))

/-- y where y ≥ 0, else the float 0x3C23D70A times y. -/
def leaky (y : FVec F S100000x128 .f32) : FVec F S100000x128 .f32 :=
  select (cmpf .oge y (broadcastInDim S100000x128 ![] bcast_S_S100000x128 (constant S_ .f32 0x00000000#32))) y
    (mulf (broadcastInDim S100000x128 ![] bcast_S_S100000x128 (constant S_ .f32 0x3C23D70A#32)) y)

/-- The two layers. -/
def whole (x : FVec F S100000x64 .f32) (src dst : IVec S1600000 32) (W1 : FVec F S64x128 .f32) (b1 : FVec F S128 .f32)
    (W2 : FVec F S128x128 .f32) (b2 : FVec F S128 .f32) : FVec F S100000x128 .f32 :=
  dense128 (aggregate128 (leaky (dense64 (aggregate64 x (invSqrtDeg src) src dst) (invSqrtDeg dst) W1 b1))
    (invSqrtDeg src) src dst) (invSqrtDeg dst) W2 b2

end Cert.ReferenceIdeal.Spec

end
-- ==== Proof.RefRun.lean ====
/-
  The run of the reference program, a two-layer graph convolution over E = 1600000 edges (src[e] → dst[e]) and
  N = 100000 nodes, read back as ONE function of its seven argument arrays.

  The program is a straight line of 76 whole-array operations once its three kinds of outlined calls are unfolded
  at their call sites (the clip at 1, twice; the leaky rectifier, which itself calls a select):
    * the degree of each node under src, and under dst: a vector of ones scatter-added into zeros at the edges'
      endpoints; each clipped below at 1, then the reciprocal square root taken: the two per-node factors;
    * layer one: the rows of x scaled by the src factor, gathered at the edges' sources (a negative index moved up by
      N), scatter-added into zeros at the edges' destinations; the sum scaled by the dst factor, multiplied by W1
      (64 × 128), the bias b1 added to every row; then y ↦ y where y ≥ 0, else the float 0x3C23D70A times y;
    * layer two: the same aggregation and affine map over 128 columns with W2 (128 × 128) and b2, no rectifier.
  Every value has a buffer of its own, written once. So what the result buffer holds after the line is the
  composition of the operations' functions along the data flow, and that composed term is, definition by definition,
  `Spec.whole` of the arguments' initial contents (the scalar conversions inside the clip and the rectifier are the
  identity); the arguments' buffers, written by nothing, end as they began.
-/
import proofs.«173791_j8589935121_1_alg».proof.Proof.Gen.ReferenceIdeal
import proofs.«173791_j8589935121_1_alg».proof.Proof.Spec
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's 76 operations, in order, the calls unfolded: the src degree factor (11 operations: ones, zeros, the
    index column, the scatter-add, the clip's three, the reciprocal square root), the dst degree factor (11), layer
    one's aggregation (16: the scaling, the index wrap's seven, the column, the gather, zeros, the destination column,
    the scatter-add), its affine map (7), the rectifier (8: the slope, zero and its broadcast, the comparison, the
    slope's conversion and broadcast, the product, the select), layer two's aggregation (16) and affine map (7). -/
abbrev ops : List (HloOp τ sig (Elt F)) :=
  [ nullary main_cst (constant S_ .f32 0x3F800000#32),
    unary main_cst main_v0 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v1 (broadcastInDim S100000 ![] bcast_S_S100000 : (⟨S_, .f32⟩ : BufTy).Contents (Elt F) → (⟨S100000, .f32⟩ : BufTy).Contents (Elt F)),
    unary main_arg1 main_v2 (broadcastInDim S1600000x1 ![0] bcast_S1600000_S1600000x1_0 : (⟨S1600000, .i32⟩ : BufTy).Contents (Elt F) → (⟨S1600000x1, .i32⟩ : BufTy).Contents (Elt F)),
    ternary main_v1 main_v2 main_v0 main_v3 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x3F800000#32),
    TRef.unary (.of main_cst_1) main_call0.v0 id,
    TRef.unary main_call0.v0 main_call0.v1 (broadcastInDim S100000 ![] bcast_S_S100000),
    TRef.binary main_call0.v1 (.of main_v3) main_call0.v2 maximumf,
    unary main_v4 main_v5 (Host.rsqrt : (⟨S100000, .f32⟩ : BufTy).Contents (Elt F) → (⟨S100000, .f32⟩ : BufTy).Contents (Elt F)),
    nullary main_cst_2 (constant S_ .f32 0x3F800000#32),
    unary main_cst_2 main_v6 (broadcastInDim S1600000 ![] bcast_S_S1600000 : (⟨S_, .f32⟩ : BufTy).Contents (Elt F) → (⟨S1600000, .f32⟩ : BufTy).Contents (Elt F)),
    nullary main_cst_3 (constant S_ .f32 0x00000000#32),
    unary main_cst_3 main_v7 (broadcastInDim S100000 ![] bcast_S_S100000 : (⟨S_, .f32⟩ : BufTy).Contents (Elt F) → (⟨S100000, .f32⟩ : BufTy).Contents (Elt F)),
    unary main_arg2 main_v8 (broadcastInDim S1600000x1 ![0] bcast_S1600000_S1600000x1_0 : (⟨S1600000, .i32⟩ : BufTy).Contents (Elt F) → (⟨S1600000x1, .i32⟩ : BufTy).Contents (Elt F)),
    ternary main_v7 main_v8 main_v6 main_v9 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_4 (constant S_ .f32 0x3F800000#32),
    TRef.unary (.of main_cst_4) main_call1.v0 id,
    TRef.unary main_call1.v0 main_call1.v1 (broadcastInDim S100000 ![] bcast_S_S100000),
    TRef.binary main_call1.v1 (.of main_v9) main_call1.v2 maximumf,
    unary main_v10 main_v11 (Host.rsqrt : (⟨S100000, .f32⟩ : BufTy).Contents (Elt F) → (⟨S100000, .f32⟩ : BufTy).Contents (Elt F)),
    unary main_v5 main_v12 (broadcastInDim S100000x1 ![0] bcast_S100000_S100000x1_0 : (⟨S100000, .f32⟩ : BufTy).Contents (Elt F) → (⟨S100000x1, .f32⟩ : BufTy).Contents (Elt F)),
    unary main_v12 main_v13 (broadcastInDim S100000x64 ![0, 1] bcast_S100000x1_S100000x64_0_1 : (⟨S100000x1, .f32⟩ : BufTy).Contents (Elt F) → (⟨S100000x64, .f32⟩ : BufTy).Contents (Elt F)),
    binary main_arg0 main_v13 main_v14 (mulf : (⟨S100000x64, .f32⟩ : BufTy).Contents (Elt F) → (⟨S100000x64, .f32⟩ : BufTy).Contents (Elt F) → (⟨S100000x64, .f32⟩ : BufTy).Contents (Elt F)),
    nullary main_c (constantI S_ 32 0#32),
    unary main_c main_v15 (broadcastInDim S1600000 ![] bcast_S_S1600000 : (⟨S_, .i32⟩ : BufTy).Contents (Elt F) → (⟨S1600000, .i32⟩ : BufTy).Contents (Elt F)),
    binary main_arg1 main_v15 main_v16 (cmpi .slt : (⟨S1600000, .i32⟩ : BufTy).Contents (Elt F) → (⟨S1600000, .i32⟩ : BufTy).Contents (Elt F) → (⟨S1600000, .i1⟩ : BufTy).Contents (Elt F)),
    nullary main_c_5 (constantI S_ 32 100000#32),
    unary main_c_5 main_v17 (broadcastInDim S1600000 ![] bcast_S_S1600000 : (⟨S_, .i32⟩ : BufTy).Contents (Elt F) → (⟨S1600000, .i32⟩ : BufTy).Contents (Elt F)),
    binary main_arg1 main_v17 main_v18 (addi : (⟨S1600000, .i32⟩ : BufTy).Contents (Elt F) → (⟨S1600000, .i32⟩ : BufTy).Contents (Elt F) → (⟨S1600000, .i32⟩ : BufTy).Contents (Elt F)),
    ternary main_v16 main_v18 main_arg1 main_v19 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v19 main_v20 (broadcastInDim S1600000x1 ![0] bcast_S1600000_S1600000x1_0 : (⟨S1600000, .i32⟩ : BufTy).Contents (Elt F) → (⟨S1600000x1, .i32⟩ : BufTy).Contents (Elt F)),
    binary main_v14 main_v20 main_v21 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_6 (constant S_ .f32 0x00000000#32),
    unary main_cst_6 main_v22 (broadcastInDim S100000x64 ![] bcast_S_S100000x64 : (⟨S_, .f32⟩ : BufTy).Contents (Elt F) → (⟨S100000x64, .f32⟩ : BufTy).Contents (Elt F)),
    unary main_arg2 main_v23 (broadcastInDim S1600000x1 ![0] bcast_S1600000_S1600000x1_0 : (⟨S1600000, .i32⟩ : BufTy).Contents (Elt F) → (⟨S1600000x1, .i32⟩ : BufTy).Contents (Elt F)),
    ternary main_v22 main_v23 main_v21 main_v24 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    unary main_v11 main_v25 (broadcastInDim S100000x1 ![0] bcast_S100000_S100000x1_0 : (⟨S100000, .f32⟩ : BufTy).Contents (Elt F) → (⟨S100000x1, .f32⟩ : BufTy).Contents (Elt F)),
    unary main_v25 main_v26 (broadcastInDim S100000x64 ![0, 1] bcast_S100000x1_S100000x64_0_1 : (⟨S100000x1, .f32⟩ : BufTy).Contents (Elt F) → (⟨S100000x64, .f32⟩ : BufTy).Contents (Elt F)),
    binary main_v24 main_v26 main_v27 (mulf : (⟨S100000x64, .f32⟩ : BufTy).Contents (Elt F) → (⟨S100000x64, .f32⟩ : BufTy).Contents (Elt F) → (⟨S100000x64, .f32⟩ : BufTy).Contents (Elt F)),
    binary main_v27 main_arg3 main_v28 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    unary main_arg4 main_v29 (broadcastInDim S1x128 ![1] bcast_S128_S1x128_1 : (⟨S128, .f32⟩ : BufTy).Contents (Elt F) → (⟨S1x128, .f32⟩ : BufTy).Contents (Elt F)),
    unary main_v29 main_v30 (broadcastInDim S100000x128 ![0, 1] bcast_S1x128_S100000x128_0_1 : (⟨S1x128, .f32⟩ : BufTy).Contents (Elt F) → (⟨S100000x128, .f32⟩ : BufTy).Contents (Elt F)),
    binary main_v28 main_v30 main_v31 (addf : (⟨S100000x128, .f32⟩ : BufTy).Contents (Elt F) → (⟨S100000x128, .f32⟩ : BufTy).Contents (Elt F) → (⟨S100000x128, .f32⟩ : BufTy).Contents (Elt F)),
    nullary main_cst_7 (constant S_ .f32 0x3C23D70A#32),
    TRef.nullary main_call2.cst (constant S_ .f32 0x00000000#32),
    TRef.unary main_call2.cst main_call2.v0 (broadcastInDim S100000x128 ![] bcast_S_S100000x128),
    TRef.binary (.of main_v31) main_call2.v0 main_call2.v1 (cmpf .oge),
    TRef.unary (.of main_cst_7) main_call2.v2 id,
    TRef.unary main_call2.v2 main_call2.v3 (broadcastInDim S100000x128 ![] bcast_S_S100000x128),
    TRef.binary main_call2.v3 (.of main_v31) main_call2.v4 mulf,
    TRef.ternary main_call2.v1 (.of main_v31) main_call2.v4 main_call2.call0.v0 select,
    unary main_v5 main_v33 (broadcastInDim S100000x1 ![0] bcast_S100000_S100000x1_0 : (⟨S100000, .f32⟩ : BufTy).Contents (Elt F) → (⟨S100000x1, .f32⟩ : BufTy).Contents (Elt F)),
    unary main_v33 main_v34 (broadcastInDim S100000x128 ![0, 1] bcast_S100000x1_S100000x128_0_1 : (⟨S100000x1, .f32⟩ : BufTy).Contents (Elt F) → (⟨S100000x128, .f32⟩ : BufTy).Contents (Elt F)),
    binary main_v32 main_v34 main_v35 (mulf : (⟨S100000x128, .f32⟩ : BufTy).Contents (Elt F) → (⟨S100000x128, .f32⟩ : BufTy).Contents (Elt F) → (⟨S100000x128, .f32⟩ : BufTy).Contents (Elt F)),
    nullary main_c_8 (constantI S_ 32 0#32),
    unary main_c_8 main_v36 (broadcastInDim S1600000 ![] bcast_S_S1600000 : (⟨S_, .i32⟩ : BufTy).Contents (Elt F) → (⟨S1600000, .i32⟩ : BufTy).Contents (Elt F)),
    binary main_arg1 main_v36 main_v37 (cmpi .slt : (⟨S1600000, .i32⟩ : BufTy).Contents (Elt F) → (⟨S1600000, .i32⟩ : BufTy).Contents (Elt F) → (⟨S1600000, .i1⟩ : BufTy).Contents (Elt F)),
    nullary main_c_9 (constantI S_ 32 100000#32),
    unary main_c_9 main_v38 (broadcastInDim S1600000 ![] bcast_S_S1600000 : (⟨S_, .i32⟩ : BufTy).Contents (Elt F) → (⟨S1600000, .i32⟩ : BufTy).Contents (Elt F)),
    binary main_arg1 main_v38 main_v39 (addi : (⟨S1600000, .i32⟩ : BufTy).Contents (Elt F) → (⟨S1600000, .i32⟩ : BufTy).Contents (Elt F) → (⟨S1600000, .i32⟩ : BufTy).Contents (Elt F)),
    ternary main_v37 main_v39 main_arg1 main_v40 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v40 main_v41 (broadcastInDim S1600000x1 ![0] bcast_S1600000_S1600000x1_0 : (⟨S1600000, .i32⟩ : BufTy).Contents (Elt F) → (⟨S1600000x1, .i32⟩ : BufTy).Contents (Elt F)),
    binary main_v35 main_v41 main_v42 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_10 (constant S_ .f32 0x00000000#32),
    unary main_cst_10 main_v43 (broadcastInDim S100000x128 ![] bcast_S_S100000x128 : (⟨S_, .f32⟩ : BufTy).Contents (Elt F) → (⟨S100000x128, .f32⟩ : BufTy).Contents (Elt F)),
    unary main_arg2 main_v44 (broadcastInDim S1600000x1 ![0] bcast_S1600000_S1600000x1_0 : (⟨S1600000, .i32⟩ : BufTy).Contents (Elt F) → (⟨S1600000x1, .i32⟩ : BufTy).Contents (Elt F)),
    ternary main_v43 main_v44 main_v42 main_v45 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v11 main_v46 (broadcastInDim S100000x1 ![0] bcast_S100000_S100000x1_0 : (⟨S100000, .f32⟩ : BufTy).Contents (Elt F) → (⟨S100000x1, .f32⟩ : BufTy).Contents (Elt F)),
    unary main_v46 main_v47 (broadcastInDim S100000x128 ![0, 1] bcast_S100000x1_S100000x128_0_1 : (⟨S100000x1, .f32⟩ : BufTy).Contents (Elt F) → (⟨S100000x128, .f32⟩ : BufTy).Contents (Elt F)),
    binary main_v45 main_v47 main_v48 (mulf : (⟨S100000x128, .f32⟩ : BufTy).Contents (Elt F) → (⟨S100000x128, .f32⟩ : BufTy).Contents (Elt F) → (⟨S100000x128, .f32⟩ : BufTy).Contents (Elt F)),
    binary main_v48 main_arg5 main_v49 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg6 main_v50 (broadcastInDim S1x128 ![1] bcast_S128_S1x128_1 : (⟨S128, .f32⟩ : BufTy).Contents (Elt F) → (⟨S1x128, .f32⟩ : BufTy).Contents (Elt F)),
    unary main_v50 main_v51 (broadcastInDim S100000x128 ![0, 1] bcast_S1x128_S100000x128_0_1 : (⟨S1x128, .f32⟩ : BufTy).Contents (Elt F) → (⟨S100000x128, .f32⟩ : BufTy).Contents (Elt F)),
    binary main_v49 main_v51 main_v52 (addf : (⟨S100000x128, .f32⟩ : BufTy).Contents (Elt F) → (⟨S100000x128, .f32⟩ : BufTy).Contents (Elt F) → (⟨S100000x128, .f32⟩ : BufTy).Contents (Elt F)) ]

-- the sequencing of 76 steps is re-associated statement by statement: more rewriting than the default budget
set_option maxRecDepth 4096 in
set_option maxHeartbeats 1000000 in
/-- The program is that straight line: the outlined functions unfolded at their calls and their buffer records at
    their fields, both sides are one chain of steps once the sequencing is re-associated. -/
theorem main_eq (c : Dev nD) : main (F := F) c = seq ops := by
  simp only [main, main_part0, main_part1, fn_clip.body, fn_leaky_relu.body, fn_where.body, seq, bind_assoc, pure_bind]

/-- No buffer and no semaphore of the program is scoped: all are whole-array values. -/
theorem scopedRefs_eq : (Finset.univ.filter fun b : Ref sig .tc => b.isScoped) = ∅ := by decide
theorem scopedSems_eq : (Finset.univ.filter fun sm : SemLoc sig => sm.isScoped .tc) = ∅ := by decide

/-- Every operation touches buffers of the device only. -/
theorem ops_sub : (ops : List (HloOp τ sig (Elt F))).Forall fun op => op.bufs ⊆ tcRefs τ sig :=
  ⟨nullary_bufs_sub .., unary_bufs_sub .., nullary_bufs_sub .., unary_bufs_sub .., unary_bufs_sub .., ternary_bufs_sub ..,
    nullary_bufs_sub .., unary_bufs_sub .., unary_bufs_sub .., binary_bufs_sub .., unary_bufs_sub .., nullary_bufs_sub ..,
    unary_bufs_sub .., nullary_bufs_sub .., unary_bufs_sub .., unary_bufs_sub .., ternary_bufs_sub .., nullary_bufs_sub ..,
    unary_bufs_sub .., unary_bufs_sub .., binary_bufs_sub .., unary_bufs_sub .., unary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    unary_bufs_sub .., ternary_bufs_sub .., unary_bufs_sub .., unary_bufs_sub .., binary_bufs_sub .., binary_bufs_sub ..,
    unary_bufs_sub .., unary_bufs_sub .., binary_bufs_sub .., nullary_bufs_sub .., nullary_bufs_sub .., unary_bufs_sub ..,
    binary_bufs_sub .., unary_bufs_sub .., unary_bufs_sub .., binary_bufs_sub .., ternary_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., unary_bufs_sub .., ternary_bufs_sub .., unary_bufs_sub .., unary_bufs_sub .., binary_bufs_sub ..,
    binary_bufs_sub .., unary_bufs_sub .., unary_bufs_sub .., binary_bufs_sub ..⟩

-- the gather, the scatter-add and the reciprocal square root stay folded while the two sides are compared: the
-- comparison never looks inside them
attribute [local irreducible] Host.gather Host.scatterAdd Host.rsqrt in
set_option maxRecDepth 8192 in
/-- The result buffer after the 76 operations, from any contents `V`: each operation's value at its own buffer is its
    function of its operands' buffers, every other buffer keeps what it held; followed back from the last addition to
    the arguments this is the two-layer function of the arguments' contents in `V`. -/
theorem out_eq (V : Valuation τ sig (Elt F)) :
    after ops V (main_v52 : DevRef τ sig)
      = Spec.whole (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) := by
  after_results_simp
  rfl

/-- No operation writes argument 0's buffer: it ends as it began. -/
theorem arg0_eq (V : Valuation τ sig (Elt F)) :
    after ops V (main_arg0 : DevRef τ sig) = V (main_arg0 : DevRef τ sig) := by
  after_results_simp

/-- No operation writes argument 1's buffer: it ends as it began. -/
theorem arg1_eq (V : Valuation τ sig (Elt F)) :
    after ops V (main_arg1 : DevRef τ sig) = V (main_arg1 : DevRef τ sig) := by
  after_results_simp

/-- No operation writes argument 2's buffer: it ends as it began. -/
theorem arg2_eq (V : Valuation τ sig (Elt F)) :
    after ops V (main_arg2 : DevRef τ sig) = V (main_arg2 : DevRef τ sig) := by
  after_results_simp

/-- No operation writes argument 3's buffer: it ends as it began. -/
theorem arg3_eq (V : Valuation τ sig (Elt F)) :
    after ops V (main_arg3 : DevRef τ sig) = V (main_arg3 : DevRef τ sig) := by
  after_results_simp

/-- No operation writes argument 4's buffer: it ends as it began. -/
theorem arg4_eq (V : Valuation τ sig (Elt F)) :
    after ops V (main_arg4 : DevRef τ sig) = V (main_arg4 : DevRef τ sig) := by
  after_results_simp

/-- No operation writes argument 5's buffer: it ends as it began. -/
theorem arg5_eq (V : Valuation τ sig (Elt F)) :
    after ops V (main_arg5 : DevRef τ sig) = V (main_arg5 : DevRef τ sig) := by
  after_results_simp

/-- No operation writes argument 6's buffer: it ends as it began. -/
theorem arg6_eq (V : Valuation τ sig (Elt F)) :
    after ops V (main_arg6 : DevRef τ sig) = V (main_arg6 : DevRef τ sig) := by
  after_results_simp

/-- On every device, for any float values, from any memory with zero counters: every weakly fair execution of the
    program terminates with the result buffer at the two-layer graph convolution of the arguments' initial contents,
    and the seven arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v52)
          = Cert.ReferenceIdeal.Spec.whole (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
              (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v52).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _)⟩)
    (run_seq scopedRefs_eq scopedSems_eq defs main (fun _ => ops) main_eq (fun _ => ops_sub) m ρ)

end Cert.ReferenceIdeal.RefRun

end
-- ==== Proof.KerRun.lean ====
/-
  The whole program's run with its RESULT kept: every weakly fair execution of the program (host operations, the first
  row-blocked dense layer, host operations again, the second dense layer) terminates without a fault, the result buffer
  ends at the contents the last segment boundary names — the second layer's output array as its pipeline leaves it —
  and the seven argument arrays end as launched.
-/
import proofs.«173791_j8589935121_1_alg».proof.Proof.Gen.KernelIdeal.Frame

set_option maxRecDepth 16384

noncomputable section

namespace Cert.KernelIdeal.KerRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer at the last boundary's contents, the arguments unchanged. -/
theorem run_value : θ_run defs (onTc (τ := τ) (main (F := F))) ⟨m, fun _ => 0, ρ⟩ (fun r => ∀ c : Dev nD,
      r.2.mem ((c.tc : Thread nD τ).loc main_v43) = W8 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v43 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.KernelIdeal.KerRun

end
-- ==== Proof.LibLayout.lean ====
/-
  Layout operations of small rank read at an index written by coordinates, and a row sum.

  A column vector `[a, 1]` made from a vector `[a]`, a column broadcast along the rows of a matrix `[a, b]`, and the
  sum of a matrix's rows by a reduction over its second axis: each read at `ix1` / `ix2` coordinates.
-/
import Idealize.ShloMosaic.Lib.Pipeline.Value
import Idealize.ShloMosaic.Lib.ValueIdx
import Idealize.ShloMosaic.Lib.ValueLayout
import Idealize.ShloMosaic.PureOps.Ideal.Laws

namespace Cert.LibLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the second axis of a matrix of extended reals, read at row `n`: the row's sum. -/
theorem multiReduction_add_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral FTy.f32 hφ)
    (n : Fin a) :
    multiReduction .add [1] ⟨1, ![a]⟩ src acc h hφ hacc (ix1 n) = ∑ k : Fin b, src (ix2 n k) := by
  refine (Ideal.multiReduction_add_single src acc h hφ hacc (ix1 n)).trans ?_
  refine Finset.sum_congr rfl fun k _ => ?_
  exact congrArg src (funext fun ax => Fin.ext (by match ax with | ⟨0, _⟩ => rfl | ⟨1, _⟩ => rfl))

/-- The maximum over the second axis of a matrix of extended reals, read at row `n`: the fold of `max` over the row
    from the accumulator's value. -/
theorem multiReduction_max_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.maximumf.neutral FTy.f32 hφ)
    (n : Fin a) :
    multiReduction .maximumf [1] ⟨1, ![a]⟩ src acc h hφ hacc (ix1 n)
      = (Finset.univ : Finset (Fin b)).fold max (Ideal.ofBits .f32 acc) (fun k => src (ix2 n k)) := by
  refine (Ideal.multiReduction_maximumf_single src acc h hφ hacc (ix1 n)).trans ?_
  refine congrArg (Finset.fold max (Ideal.ofBits .f32 acc) · Finset.univ) (funext fun k => ?_)
  exact congrArg src (funext fun ax => Fin.ext (by match ax with | ⟨0, _⟩ => rfl | ⟨1, _⟩ => rfl))

/-- The row sum and the row maximum with the accumulator's word and its proof spelt as a printed body spells them (the
    zero word; the `-∞` word), so that they rewrite a printed reduction where it stands. -/
theorem sum_rows_apply {a b : ℕ} (src : FVec Ideal ⟨2, ![a, b]⟩ .f32)
    (h : (⟨2, ![a, b]⟩ : Shape).Reduces [1] ⟨1, ![a]⟩) (hφ : FKind.Formats FTy.f32)
    (hacc : (0x00000000#32 : BitVec 32) = 0x00000000#32) (n : Fin a) :
    multiReduction .add [1] ⟨1, ![a]⟩ src 0x00000000#32 h hφ hacc (ix1 n) = ∑ k : Fin b, src (ix2 n k) :=
  multiReduction_add_rows src 0x00000000#32 h hφ hacc n

theorem max_rows_apply {a b : ℕ} (src : FVec Ideal ⟨2, ![a, b]⟩ .f32)
    (h : (⟨2, ![a, b]⟩ : Shape).Reduces [1] ⟨1, ![a]⟩) (hφ : FKind.Formats FTy.f32)
    (hacc : (0xFF800000#32 : BitVec 32) = 0xFF800000#32) (n : Fin a) :
    multiReduction .maximumf [1] ⟨1, ![a]⟩ src 0xFF800000#32 h hφ hacc (ix1 n)
      = (Finset.univ : Finset (Fin b)).fold max (Ideal.ofBits .f32 0xFF800000#32) (fun k => src (ix2 n k)) :=
  multiReduction_max_rows src 0xFF800000#32 h hφ hacc n

/-- A vector `[b]` laid as one row and repeated down the rows of `[a, b]` reads, at `(p, c)`, the vector at `c`
    (a bias added to every row). -/
theorem rowBias_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- A matrix product of rows with rows (`A · Bᵀ`: the second axis of each operand contracted) into a zero accumulator,
    on the extended reals: entry `(p, q)` is the sum over `k` of `A[p, k] · B[q, k]`.  The record's own facts (one
    contracted axis of extent `K`; the free axes' coordinates) are hypotheses, closed at a literal record by
    `rfl` and by unfolding the index functions. -/
theorem matmul_rows_rows_apply {M K N : ℕ} {φ₁ φ₂ : FTy} (d : DotDims ⟨2, ![M, K]⟩ ⟨2, ![N, K]⟩ ⟨2, ![M, N]⟩)
    (hr : d.contr.rank = 1) (hs : d.contr.size ⟨0, by omega⟩ = K)
    (hlc : d.lhsContracting = [1]) (hrc : d.rhsContracting = [1])
    (hl0 : ∀ j k, (d.lhsIdx j k 0).val = (j 0).val) (hr0 : ∀ j k, (d.rhsIdx j k 0).val = (j 1).val)
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ k : Fin K, lhs (ix2 p k) * rhs (ix2 q k) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact hr0 _ _
    | ⟨1, _⟩ => exact (d.rhsIdx_val_of_single hrc _ _).trans hk)
  rw [el, er]

/-- A matrix product of rows with columns (`A · B`: the left operand's second axis against the right operand's first)
    into a zero accumulator, on the extended reals: entry `(p, q)` is the sum over `k` of `A[p, k] · B[k, q]`. -/
theorem matmul_rows_cols_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

/-- A vector cut from `o` reads, at `j`, the source at `o + j`. -/
theorem slice1_eq {n0 m : Nat} (o : Nat) (X : (⟨1, ![n0]⟩ : Shape).Idx → α)
    (h : (⟨1, ![n0]⟩ : Shape).Slices ![o] ⟨1, ![m]⟩) (j : Fin m) :
    extractStridedSlice ⟨1, ![m]⟩ ![o] X h (ix1 j)
      = X (ix1 ⟨o + j.val, Nat.lt_of_lt_of_le (Nat.add_lt_add_left j.isLt o) (h.2 0)⟩) :=
  extractStridedSlice_apply _ _ _ _ _ (fun ax => by
    match ax with
    | ⟨0, _⟩ => rfl)

/-- A column `[a, 1]` read back as the vector `[a]`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A sum over 512 terms is the sum of its eight runs of 64. -/
theorem sum_512_eq_8x64 {M : Type*} [AddCommMonoid M] (f : Fin 512 → M) :
    ∑ r : Fin 512, f r = ∑ c : Fin 8, ∑ j : Fin 64, f ⟨64 * c.val + j.val, by omega⟩ := by
  have e := Equiv.sum_comp (finProdFinEquiv (m := 8) (n := 64)) (fun r : Fin (8 * 64) => f r)
  rw [show (∑ r : Fin 512, f r) = ∑ r : Fin (8 * 64), f r from rfl, ← e, Fintype.sum_prod_type]
  refine Finset.sum_congr rfl fun c _ => Finset.sum_congr rfl fun j _ => congrArg f (Fin.ext ?_)
  show j.val + 64 * c.val = 64 * c.val + j.val
  omega

/-- The same sum as an accumulation from zero of the eight runs, in order. -/
theorem sum_512_chunks {M : Type*} [AddCommMonoid M] (f : Fin 512 → M) :
    ∑ r : Fin 512, f r =
      0 + (∑ j : Fin 64, f ⟨0 + j.val, by omega⟩) + (∑ j : Fin 64, f ⟨64 + j.val, by omega⟩)
        + (∑ j : Fin 64, f ⟨128 + j.val, by omega⟩) + (∑ j : Fin 64, f ⟨192 + j.val, by omega⟩)
        + (∑ j : Fin 64, f ⟨256 + j.val, by omega⟩) + (∑ j : Fin 64, f ⟨320 + j.val, by omega⟩)
        + (∑ j : Fin 64, f ⟨384 + j.val, by omega⟩) + (∑ j : Fin 64, f ⟨448 + j.val, by omega⟩) := by
  rw [sum_512_eq_8x64, Fin.sum_univ_eight, zero_add]
  rfl

end Cert.LibLayout
-- ==== Proof.LibHostDot.lean ====
/-
  The host's matrix products read entry by entry on the extended reals: rows against rows (A · Bᵀ) and rows against
  columns (A · B), each entry the sum over the contracted index of the operands' products.
-/
import Idealize.ShloMosaic.Lib.Pipeline.Value
import Idealize.ShloMosaic.Lib.ValueIdx
import Idealize.ShloMosaic.PureOps.Ideal.Laws

namespace Cert.LibHostDot

open Idealize.ShloMosaic Idealize.ShloMosaic.ValueIdx

/-- The host's product of rows with rows: entry `(p, q)` is the sum over `k` of `A[p, k] · B[q, k]`. The record's facts
    (one contracted axis of extent `K`; the free axes' coordinates) are hypotheses, closed at a literal record by `rfl`
    and by unfolding the index functions. -/
theorem dotGeneral_rows_rows_apply {M K N : ℕ} {φ₁ φ₂ : FTy} (d : DotDims ⟨2, ![M, K]⟩ ⟨2, ![N, K]⟩ ⟨2, ![M, N]⟩)
    (hr : d.contr.rank = 1) (hs : d.contr.size ⟨0, by omega⟩ = K)
    (hlc : d.lhsContracting = [1]) (hrc : d.rhsContracting = [1])
    (hl0 : ∀ j k, (d.lhsIdx j k 0).val = (j 0).val) (hr0 : ∀ j k, (d.rhsIdx j k 0).val = (j 1).val)
    (prec : Option ContractPrecision) (lhs : FVec Ideal ⟨2, ![M, K]⟩ φ₁) (rhs : FVec Ideal ⟨2, ![N, K]⟩ φ₂) (p : Fin M) (q : Fin N) :
    Host.dotGeneral d prec lhs rhs (ix2 p q) = ∑ k : Fin K, lhs (ix2 p k) * rhs (ix2 q k) := by
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact hr0 _ _
    | ⟨1, _⟩ => exact (d.rhsIdx_val_of_single hrc _ _).trans hk)
  rw [el, er]

/-- The host's product of rows with columns: entry `(p, q)` is the sum over `k` of `A[p, k] · B[k, q]`. -/
theorem dotGeneral_rows_cols_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (prec : Option ContractPrecision) (lhs : FVec Ideal ⟨2, ![M, K]⟩ φ₁) (rhs : FVec Ideal ⟨2, ![K, N]⟩ φ₂) (p : Fin M) (q : Fin N) :
    Host.dotGeneral d prec lhs rhs (ix2 p q) = ∑ k : Fin K, lhs (ix2 p k) * rhs (ix2 k q) := by
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

end Cert.LibHostDot
-- ==== Proof.LibMatRows.lean ====
/-
  A matrix product computed one block of rows at a time is the whole product.

  Let X be an M × K matrix, W a K × N matrix, and let x0 be m consecutive rows of X (row p of x0 is row P of X).  The
  product of x0 with W accumulated into the zero matrix has, at (p, q), the sum over k of x0[p, k] · W[k, q]; the host's
  whole product X · W has, at (P, q), the sum over k of X[P, k] · W[k, q].  The two sums have equal terms, so a grid of
  row blocks that tiles X writes exactly the whole product.  On the extended reals nothing else is involved: no
  rounding, no order of summation.  All extents are variables; the records' own facts are hypotheses.
-/
import Idealize.ShloMosaic.Lib.Pipeline.Value
import Idealize.ShloMosaic.Lib.ValueIdx
import Idealize.ShloMosaic.PureOps.Ideal.Laws
import proofs.«173791_j8589935121_1_alg».proof.Proof.LibLayout
import proofs.«173791_j8589935121_1_alg».proof.Proof.LibHostDot

noncomputable section

namespace Cert.LibMatRows

open Idealize.ShloMosaic Idealize.ShloMosaic.ValueIdx

/-- Entry (p, q) of a block's product into zero is entry (P, q) of the whole host product, when row p of the block is
    row P of the whole left operand and the right operands agree on column q. -/
theorem block_entry {M m K N : ℕ} {φ₁ φ₂ : FTy}
    (dB : DotDims ⟨2, ![m, K]⟩ ⟨2, ![K, N]⟩ ⟨2, ![m, N]⟩) (dW : DotDims ⟨2, ![M, K]⟩ ⟨2, ![K, N]⟩ ⟨2, ![M, N]⟩)
    (hrB : dB.contr.rank = 1) (hsB : dB.contr.size ⟨0, by omega⟩ = K)
    (hlcB : dB.lhsContracting = [1]) (hrcB : dB.rhsContracting = [0])
    (hl0B : ∀ j k, (dB.lhsIdx j k 0).val = (j 0).val) (hr1B : ∀ j k, (dB.rhsIdx j k 1).val = (j 1).val)
    (hrW : dW.contr.rank = 1) (hsW : dW.contr.size ⟨0, by omega⟩ = K)
    (hlcW : dW.lhsContracting = [1]) (hrcW : dW.rhsContracting = [0])
    (hl0W : ∀ j k, (dW.lhsIdx j k 0).val = (j 0).val) (hr1W : ∀ j k, (dW.rhsIdx j k 1).val = (j 1).val)
    (X : FVec Ideal ⟨2, ![M, K]⟩ .f32) (W : FVec Ideal ⟨2, ![K, N]⟩ .f32)
    (x0 : FVec Ideal ⟨2, ![m, K]⟩ φ₁) (w0 : FVec Ideal ⟨2, ![K, N]⟩ φ₂)
    (p : Fin m) (q : Fin N) (P : Fin M)
    (hx : ∀ k : Fin K, x0 (ix2 p k) = X (ix2 P k)) (hw : ∀ k : Fin K, w0 (ix2 k q) = W (ix2 k q)) :
    matmul dB none x0 w0 (constant ⟨2, ![m, N]⟩ .f32 0x00000000#32) (ix2 p q)
      = Host.dotGeneral dW none X W (ix2 P q) := by
  rw [Cert.LibLayout.matmul_rows_cols_apply dB hrB hsB hlcB hrcB hl0B hr1B,
    Cert.LibHostDot.dotGeneral_rows_cols_apply dW hrW hsW hlcW hrcW hl0W hr1W]
  refine Finset.sum_congr rfl fun k _ => ?_
  rw [hx k, hw k]

end Cert.LibMatRows

end
-- ==== Proof.LibCombine.lean ====
/-
  Sums of per-relation contributions and bias rows, rectified: the vector unit's spelling against the host's.

  A bias row r (a 1 × n matrix) broadcast down the rows of a matrix has r[0, q] at entry (p, q), whether it is spelt as a
  trailing-axes broadcast of a block or as a broadcast along named axes of the whole matrix.  The kernel adds three
  contributions and three bias rows from left to right, (((((x0 + y0) + x1) + y1) + x2) + y2); the host adds each
  contribution to its own bias first and then adds the three, ((x0 + y0) + (x1 + y1)) + (x2 + y2).  Addition on the
  extended reals is associative (and commutative), with no finiteness needed, so the two agree entry by entry; the
  maximum against zero is then taken of equal numbers.  A vector reshaped to one row is the same row as the vector given
  a leading unit axis.  All extents are variables.
-/
import Idealize.ShloMosaic.PureOps.Ideal.Laws
import Idealize.ShloMosaic.Lib.ValueIdx
import Idealize.ShloMosaic.Lib.Pipeline.Value

noncomputable section

namespace Cert.LibCombine

open Idealize.ShloMosaic Idealize.ShloMosaic.ValueIdx

/-- A coordinate below an extent is itself, or zero when the extent is one. -/
theorem val_eq_ite {n : Nat} (a : Fin n) : a.val = if n = 1 then 0 else a.val := by
  split
  · have := a.isLt; omega
  · rfl

/-- A row (1 × n) cast to its own shape and broadcast down a rows reads, at (p, q), the row at q. -/
theorem blockRow_apply {α : Type} {a n : Nat} (r : (⟨2, ![1, n]⟩ : Shape).Idx → α)
    (h1 : (⟨2, ![1, n]⟩ : Shape).ShapeCasts ⟨2, ![1, n]⟩) (h2 : (⟨2, ![1, n]⟩ : Shape).Broadcasts ⟨2, ![a, n]⟩)
    (p : Fin a) (q : Fin n) :
    broadcastTo ⟨2, ![a, n]⟩ (shapeCast ⟨2, ![1, n]⟩ r h1) h2 (ix2 p q) = r (ix2 0 q) := by
  rw [shapeCast_self]
  exact broadcastTo_apply _ h2 (ix2 p q) (ix2 0 q) (fun c => by
    match c with
    | ⟨0, _⟩ => show (0 : Nat) = if (1 : Nat) = 1 then 0 else _; rw [if_pos rfl]
    | ⟨1, _⟩ => exact val_eq_ite (n := n) q)

/-- A row (1 × n) broadcast along both axes down A rows reads, at (P, q), the row at q. -/
theorem wholeRow_apply {α : Type} {A n : Nat} (r : (⟨2, ![1, n]⟩ : Shape).Idx → α)
    (h4 : (⟨2, ![1, n]⟩ : Shape).BroadcastsInDim ⟨2, ![A, n]⟩ (![0, 1] : Fin 2 → Fin 2)) (P : Fin A) (q : Fin n) :
    broadcastInDim ⟨2, ![A, n]⟩ ![0, 1] h4 r (ix2 P q) = r (ix2 0 q) :=
  broadcastInDim_apply _ h4 _ (ix2 P q) (ix2 0 q) (fun c => by
    match c with
    | ⟨0, _⟩ => show (0 : Nat) = if (1 : Nat) = 1 then 0 else _; rw [if_pos rfl]
    | ⟨1, _⟩ => exact val_eq_ite (n := n) q)

/-- A vector of length n reshaped to one row is the vector given a leading unit axis. -/
theorem reshapeRow_eq {α : Type} {n : Nat} (b : (⟨1, ![n]⟩ : Shape).Idx → α)
    (h0 : (⟨1, ![n]⟩ : Shape).ShapeCasts ⟨2, ![1, n]⟩)
    (h3 : (⟨1, ![n]⟩ : Shape).BroadcastsInDim ⟨2, ![1, n]⟩ (![1] : Fin 1 → Fin 2)) :
    shapeCast ⟨2, ![1, n]⟩ b h0 = broadcastInDim ⟨2, ![1, n]⟩ ![1] h3 b := by
  funext i
  obtain ⟨z, q, rfl⟩ : ∃ (z : Fin 1) (q : Fin n), i = ix2 z q := ⟨i 0, i 1, eq_ix2 i⟩
  rw [broadcastInDim_apply _ h3 b (ix2 z q) (ix1 q) (fun c => by
    match c with
    | ⟨0, _⟩ => exact val_eq_ite (n := n) q)]
  refine shapeCast_apply b h0 (ix2 z q) (ix1 q) ?_
  rw [Shape.rowMajor_val_one, Shape.rowMajor_val_two]
  have hz : z.val = 0 := by have := z.isLt; omega
  show q.val = z.val * n + q.val
  rw [hz]; omega

/-- THREE CONTRIBUTIONS WITH THEIR BIAS ROWS, RECTIFIED, at one entry: the kernel's left-to-right sum over a block is the
    host's grouped sum over the whole matrix, when the block's entry (p, q) is the whole's entry (P, q) and the block's bias
    rows are the whole bias rows at column q. -/
theorem combine3_entry {a A n : Nat} (a0 a1 a2 : FVec Ideal ⟨2, ![a, n]⟩ .f32) (r0 r1 r2 : FVec Ideal ⟨2, ![1, n]⟩ .f32)
    (A0 A1 A2 : FVec Ideal ⟨2, ![A, n]⟩ .f32) (R0 R1 R2 : FVec Ideal ⟨2, ![1, n]⟩ .f32)
    (h1 : (⟨2, ![1, n]⟩ : Shape).ShapeCasts ⟨2, ![1, n]⟩) (h2 : (⟨2, ![1, n]⟩ : Shape).Broadcasts ⟨2, ![a, n]⟩)
    (h4 : (⟨2, ![1, n]⟩ : Shape).BroadcastsInDim ⟨2, ![A, n]⟩ (![0, 1] : Fin 2 → Fin 2))
    (h5 : (⟨0, ![]⟩ : Shape).BroadcastsInDim ⟨2, ![A, n]⟩ (![] : Fin 0 → Fin 2))
    (p : Fin a) (q : Fin n) (P : Fin A)
    (e0 : a0 (ix2 p q) = A0 (ix2 P q)) (e1 : a1 (ix2 p q) = A1 (ix2 P q)) (e2 : a2 (ix2 p q) = A2 (ix2 P q))
    (f0 : r0 (ix2 0 q) = R0 (ix2 0 q)) (f1 : r1 (ix2 0 q) = R1 (ix2 0 q)) (f2 : r2 (ix2 0 q) = R2 (ix2 0 q)) :
    maximumf (addf (addf (addf (addf (addf a0
        (broadcastTo ⟨2, ![a, n]⟩ (shapeCast ⟨2, ![1, n]⟩ r0 h1) h2)) a1)
        (broadcastTo ⟨2, ![a, n]⟩ (shapeCast ⟨2, ![1, n]⟩ r1 h1) h2)) a2)
        (broadcastTo ⟨2, ![a, n]⟩ (shapeCast ⟨2, ![1, n]⟩ r2 h1) h2))
        (broadcast ⟨2, ![a, n]⟩ (Scalar.ofBits (F := Ideal) .f32 0x00000000#32)) (ix2 p q)
      = maximumf (addf (addf (addf A0 (broadcastInDim ⟨2, ![A, n]⟩ ![0, 1] h4 R0))
          (addf A1 (broadcastInDim ⟨2, ![A, n]⟩ ![0, 1] h4 R1)))
          (addf A2 (broadcastInDim ⟨2, ![A, n]⟩ ![0, 1] h4 R2)))
          (broadcastInDim ⟨2, ![A, n]⟩ ![] h5 (constant (F := Ideal) ⟨0, ![]⟩ .f32 0x00000000#32)) (ix2 P q) := by
  simp only [maximumf, addf]
  refine congrArg₂ FloatOps.maximumf ?_ rfl
  rw [blockRow_apply r0 h1 h2 p q, blockRow_apply r1 h1 h2 p q, blockRow_apply r2 h1 h2 p q,
    wholeRow_apply R0 h4 P q, wholeRow_apply R1 h4 P q, wholeRow_apply R2 h4 P q, e0, e1, e2, f0, f1, f2]
  simp only [Ideal.addf_def, add_assoc]

/-- ONE CONTRIBUTION WITH ITS BIAS ROW, RECTIFIED, at one entry. -/
theorem combine1_entry {a A n : Nat} (a0 : FVec Ideal ⟨2, ![a, n]⟩ .f32) (r0 : FVec Ideal ⟨2, ![1, n]⟩ .f32)
    (A0 : FVec Ideal ⟨2, ![A, n]⟩ .f32) (R0 : FVec Ideal ⟨2, ![1, n]⟩ .f32)
    (h1 : (⟨2, ![1, n]⟩ : Shape).ShapeCasts ⟨2, ![1, n]⟩) (h2 : (⟨2, ![1, n]⟩ : Shape).Broadcasts ⟨2, ![a, n]⟩)
    (h4 : (⟨2, ![1, n]⟩ : Shape).BroadcastsInDim ⟨2, ![A, n]⟩ (![0, 1] : Fin 2 → Fin 2))
    (h5 : (⟨0, ![]⟩ : Shape).BroadcastsInDim ⟨2, ![A, n]⟩ (![] : Fin 0 → Fin 2))
    (p : Fin a) (q : Fin n) (P : Fin A) (e0 : a0 (ix2 p q) = A0 (ix2 P q)) (f0 : r0 (ix2 0 q) = R0 (ix2 0 q)) :
    maximumf (addf a0 (broadcastTo ⟨2, ![a, n]⟩ (shapeCast ⟨2, ![1, n]⟩ r0 h1) h2))
        (broadcast ⟨2, ![a, n]⟩ (Scalar.ofBits (F := Ideal) .f32 0x00000000#32)) (ix2 p q)
      = maximumf (addf A0 (broadcastInDim ⟨2, ![A, n]⟩ ![0, 1] h4 R0))
          (broadcastInDim ⟨2, ![A, n]⟩ ![] h5 (constant (F := Ideal) ⟨0, ![]⟩ .f32 0x00000000#32)) (ix2 P q) := by
  simp only [maximumf, addf]
  refine congrArg₂ FloatOps.maximumf ?_ rfl
  rw [blockRow_apply r0 h1 h2 p q, wholeRow_apply R0 h4 P q, e0, f0]

end Cert.LibCombine

end
-- ==== Proof.LibScaledRows.lean ====
/-
  The dense parts of a degree-normalised graph convolution, one block of rows at a time, on the extended reals.

  A layer multiplies every row P of a matrix X by a per-row factor n[P] (a column), and then either takes the product
  with a weight matrix W, or adds a bias row.  Computed on a block of consecutive rows (row p of the block being row P of
  the whole), every entry is the same arithmetic expression of the same numbers as in the whole matrix:
    * (x0 ⊙ n0) · W at (p, q) is the sum over k of (x0[p, k] · n0[p]) · W[k, q], the whole product's entry (P, q);
    * a ⊙ n + r at (p, q) is a[p, q] · n[p] + r[q];
    * max(a ⊙ nd + r, 0) ⊙ ns, then the product with W, likewise.
  Only the readings of the layout operations are used (a column repeated along the rows' entries, a row repeated down the
  rows), never a law of arithmetic: the two sides are literally the same sums of the same products.  A change of float
  format is the identity on the extended reals.  A vector reshaped to a column is the vector given a trailing unit axis.
  All extents are variables; the product records' own facts are hypotheses.
-/
import Idealize.ShloMosaic.Lib.Pipeline.Value
import Idealize.ShloMosaic.Lib.ValueIdx
import Idealize.ShloMosaic.PureOps.Ideal.Laws
import proofs.«173791_j8589935121_1_alg».proof.Proof.LibLayout
import proofs.«173791_j8589935121_1_alg».proof.Proof.LibHostDot
import proofs.«173791_j8589935121_1_alg».proof.Proof.LibMatRows
import proofs.«173791_j8589935121_1_alg».proof.Proof.LibCombine

noncomputable section

namespace Cert.LibScaledRows

open Idealize.ShloMosaic Idealize.ShloMosaic.ValueIdx

/-- A column (A × 1) broadcast along both axes to A × n reads, at (P, q), the column's entry of row P. -/
theorem wholeCol_apply {α : Type} {A n : Nat} (c : (⟨2, ![A, 1]⟩ : Shape).Idx → α)
    (h : (⟨2, ![A, 1]⟩ : Shape).BroadcastsInDim ⟨2, ![A, n]⟩ (![0, 1] : Fin 2 → Fin 2)) (P : Fin A) (q : Fin n) :
    broadcastInDim ⟨2, ![A, n]⟩ ![0, 1] h c (ix2 P q) = c (ix2 P (0 : Fin 1)) :=
  broadcastInDim_apply _ h _ (ix2 P q) (ix2 P (0 : Fin 1)) (fun ax => by
    match ax with
    | ⟨0, _⟩ => exact Cert.LibCombine.val_eq_ite (n := A) P
    | ⟨1, _⟩ => show (0 : Nat) = if (1 : Nat) = 1 then 0 else _; rw [if_pos rfl])

/-- A block column (a × 1) cast to its own shape and repeated along the entries of the rows reads, at (p, q), the
    column's entry of row p. -/
theorem blockCol_apply {α : Type} {a n : Nat} (c : (⟨2, ![a, 1]⟩ : Shape).Idx → α)
    (h1 : (⟨2, ![a, 1]⟩ : Shape).ShapeCasts ⟨2, ![a, 1]⟩) (h2 : (⟨2, ![a, 1]⟩ : Shape).Broadcasts ⟨2, ![a, n]⟩)
    (p : Fin a) (q : Fin n) :
    broadcastTo ⟨2, ![a, n]⟩ (shapeCast ⟨2, ![a, 1]⟩ c h1) h2 (ix2 p q) = c (ix2 p (0 : Fin 1)) := by
  rw [shapeCast_self]
  exact Cert.LibLayout.broadcastTo_a1_ab_apply c h2 p q

/-- A vector of length a reshaped to a column is the vector given a trailing unit axis. -/
theorem reshapeCol_eq {α : Type} {a : Nat} (v : (⟨1, ![a]⟩ : Shape).Idx → α)
    (h0 : (⟨1, ![a]⟩ : Shape).ShapeCasts ⟨2, ![a, 1]⟩)
    (h3 : (⟨1, ![a]⟩ : Shape).BroadcastsInDim ⟨2, ![a, 1]⟩ (![0] : Fin 1 → Fin 2)) :
    shapeCast ⟨2, ![a, 1]⟩ v h0 = broadcastInDim ⟨2, ![a, 1]⟩ ![0] h3 v := by
  funext i
  obtain ⟨p, u, rfl⟩ : ∃ (p : Fin a) (u : Fin 1), i = ix2 p u := ⟨i 0, i 1, eq_ix2 i⟩
  rw [broadcastInDim_apply _ h3 v (ix2 p u) (ix1 p) (fun c => by
    match c with
    | ⟨0, _⟩ => exact Cert.LibCombine.val_eq_ite (n := a) p)]
  exact Cert.LibLayout.shapeCast_a_a1_apply v h0 p u

/-- A PRODUCT OF A NARROWED BLOCK: entry (p, q) of the block's y0 · w0 accumulated into zero, y0 first changed to the
    narrower float format (the identity on the extended reals), is entry (P, q) of the whole host product X · W, when
    row p of y0 is row P of X and the right operands agree on column q. -/
theorem truncated_block_entry {M m K N : ℕ} {φ₂ : FTy}
    (dB : DotDims ⟨2, ![m, K]⟩ ⟨2, ![K, N]⟩ ⟨2, ![m, N]⟩) (dW : DotDims ⟨2, ![M, K]⟩ ⟨2, ![K, N]⟩ ⟨2, ![M, N]⟩)
    (hrB : dB.contr.rank = 1) (hsB : dB.contr.size ⟨0, by omega⟩ = K)
    (hlcB : dB.lhsContracting = [1]) (hrcB : dB.rhsContracting = [0])
    (hl0B : ∀ j k, (dB.lhsIdx j k 0).val = (j 0).val) (hr1B : ∀ j k, (dB.rhsIdx j k 1).val = (j 1).val)
    (hrW : dW.contr.rank = 1) (hsW : dW.contr.size ⟨0, by omega⟩ = K)
    (hlcW : dW.lhsContracting = [1]) (hrcW : dW.rhsContracting = [0])
    (hl0W : ∀ j k, (dW.lhsIdx j k 0).val = (j 0).val) (hr1W : ∀ j k, (dW.rhsIdx j k 1).val = (j 1).val)
    (X : FVec Ideal ⟨2, ![M, K]⟩ .f32) (W : FVec Ideal ⟨2, ![K, N]⟩ .f32)
    (y0 : FVec Ideal ⟨2, ![m, K]⟩ .f32) (w0 : FVec Ideal ⟨2, ![K, N]⟩ φ₂)
    (hb : FTy.bf16.bits < FTy.f32.bits) (hw1 : (⟨2, ![K, N]⟩ : Shape).ShapeCasts ⟨2, ![K, N]⟩)
    (p : Fin m) (q : Fin N) (P : Fin M)
    (hx : ∀ k : Fin K, y0 (ix2 p k) = X (ix2 P k)) (hw : ∀ k : Fin K, w0 (ix2 k q) = W (ix2 k q)) :
    matmul dB none (truncf .bf16 y0 hb) (shapeCast ⟨2, ![K, N]⟩ w0 hw1) (constant ⟨2, ![m, N]⟩ .f32 0x00000000#32) (ix2 p q)
      = Host.dotGeneral dW none X W (ix2 P q) := by
  rw [shapeCast_self w0]
  have key := Cert.LibMatRows.block_entry (M := M) (m := m) (K := K) (N := N) (φ₁ := .bf16) (φ₂ := φ₂)
    dB dW hrB hsB hlcB hrcB hl0B hr1B hrW hsW hlcW hrcW hl0W hr1W X W (truncf .bf16 y0 hb) w0 p q P
    (fun k => (truncf_apply y0 hb (ix2 p k)).trans (hx k)) hw
  exact key

/-- ROWS SCALED, THEN A PRODUCT: entry (p, q) of the block's (x0 ⊙ n0) · w0 accumulated into zero is entry (P, q) of the
    whole host product (X ⊙ n) · W, when row p of the block operands is row P of the whole ones and the right operands
    agree on column q. -/
theorem scaled_block_entry {M m K N : ℕ} {φ₂ : FTy}
    (dB : DotDims ⟨2, ![m, K]⟩ ⟨2, ![K, N]⟩ ⟨2, ![m, N]⟩) (dW : DotDims ⟨2, ![M, K]⟩ ⟨2, ![K, N]⟩ ⟨2, ![M, N]⟩)
    (hrB : dB.contr.rank = 1) (hsB : dB.contr.size ⟨0, by omega⟩ = K)
    (hlcB : dB.lhsContracting = [1]) (hrcB : dB.rhsContracting = [0])
    (hl0B : ∀ j k, (dB.lhsIdx j k 0).val = (j 0).val) (hr1B : ∀ j k, (dB.rhsIdx j k 1).val = (j 1).val)
    (hrW : dW.contr.rank = 1) (hsW : dW.contr.size ⟨0, by omega⟩ = K)
    (hlcW : dW.lhsContracting = [1]) (hrcW : dW.rhsContracting = [0])
    (hl0W : ∀ j k, (dW.lhsIdx j k 0).val = (j 0).val) (hr1W : ∀ j k, (dW.rhsIdx j k 1).val = (j 1).val)
    (X : FVec Ideal ⟨2, ![M, K]⟩ .f32) (n : FVec Ideal ⟨2, ![M, 1]⟩ .f32) (W : FVec Ideal ⟨2, ![K, N]⟩ .f32)
    (x0 : FVec Ideal ⟨2, ![m, K]⟩ .f32) (n0 : FVec Ideal ⟨2, ![m, 1]⟩ .f32) (w0 : FVec Ideal ⟨2, ![K, N]⟩ φ₂)
    (h1 : (⟨2, ![m, 1]⟩ : Shape).ShapeCasts ⟨2, ![m, 1]⟩) (h2 : (⟨2, ![m, 1]⟩ : Shape).Broadcasts ⟨2, ![m, K]⟩)
    (hb : FTy.bf16.bits < FTy.f32.bits) (hw1 : (⟨2, ![K, N]⟩ : Shape).ShapeCasts ⟨2, ![K, N]⟩)
    (h4 : (⟨2, ![M, 1]⟩ : Shape).BroadcastsInDim ⟨2, ![M, K]⟩ (![0, 1] : Fin 2 → Fin 2))
    (p : Fin m) (q : Fin N) (P : Fin M)
    (hx : ∀ k : Fin K, x0 (ix2 p k) = X (ix2 P k)) (hn : n0 (ix2 p (0 : Fin 1)) = n (ix2 P (0 : Fin 1)))
    (hw : ∀ k : Fin K, w0 (ix2 k q) = W (ix2 k q)) :
    matmul dB none (truncf .bf16 (mulf x0 (broadcastTo ⟨2, ![m, K]⟩ (shapeCast ⟨2, ![m, 1]⟩ n0 h1) h2)) hb)
        (shapeCast ⟨2, ![K, N]⟩ w0 hw1) (constant ⟨2, ![m, N]⟩ .f32 0x00000000#32) (ix2 p q)
      = Host.dotGeneral dW none (mulf X (broadcastInDim ⟨2, ![M, K]⟩ ![0, 1] h4 n)) W (ix2 P q) := by
  exact truncated_block_entry dB dW hrB hsB hlcB hrcB hl0B hr1B hrW hsW hlcW hrcW hl0W hr1W _ W _ w0 hb hw1 p q P
    (fun k => by rw [mulf_apply, mulf_apply, blockCol_apply n0 h1 h2 p k, wholeCol_apply n h4 P k, hx k, hn]) hw

/-- ROWS SCALED, A BIAS ROW ADDED: entry (p, q) of the block's a0 ⊙ n0 + r0 is entry (P, q) of the whole A ⊙ n + R. -/
theorem affine_entry {a A N : ℕ}
    (a0 : FVec Ideal ⟨2, ![a, N]⟩ .f32) (n0 : FVec Ideal ⟨2, ![a, 1]⟩ .f32) (r0 : FVec Ideal ⟨2, ![1, N]⟩ .f32)
    (A0 : FVec Ideal ⟨2, ![A, N]⟩ .f32) (n : FVec Ideal ⟨2, ![A, 1]⟩ .f32) (R : FVec Ideal ⟨2, ![1, N]⟩ .f32)
    (h0 : (⟨2, ![a, N]⟩ : Shape).ShapeCasts ⟨2, ![a, N]⟩)
    (h1 : (⟨2, ![a, 1]⟩ : Shape).ShapeCasts ⟨2, ![a, 1]⟩) (h2 : (⟨2, ![a, 1]⟩ : Shape).Broadcasts ⟨2, ![a, N]⟩)
    (h5 : (⟨2, ![1, N]⟩ : Shape).ShapeCasts ⟨2, ![1, N]⟩) (h6 : (⟨2, ![1, N]⟩ : Shape).Broadcasts ⟨2, ![a, N]⟩)
    (h4 : (⟨2, ![A, 1]⟩ : Shape).BroadcastsInDim ⟨2, ![A, N]⟩ (![0, 1] : Fin 2 → Fin 2))
    (h7 : (⟨2, ![1, N]⟩ : Shape).BroadcastsInDim ⟨2, ![A, N]⟩ (![0, 1] : Fin 2 → Fin 2))
    (p : Fin a) (q : Fin N) (P : Fin A)
    (ha : a0 (ix2 p q) = A0 (ix2 P q)) (hn : n0 (ix2 p (0 : Fin 1)) = n (ix2 P (0 : Fin 1)))
    (hr : r0 (ix2 0 q) = R (ix2 0 q)) :
    addf (mulf (shapeCast ⟨2, ![a, N]⟩ a0 h0) (broadcastTo ⟨2, ![a, N]⟩ (shapeCast ⟨2, ![a, 1]⟩ n0 h1) h2))
        (broadcastTo ⟨2, ![a, N]⟩ (shapeCast ⟨2, ![1, N]⟩ r0 h5) h6) (ix2 p q)
      = addf (mulf A0 (broadcastInDim ⟨2, ![A, N]⟩ ![0, 1] h4 n)) (broadcastInDim ⟨2, ![A, N]⟩ ![0, 1] h7 R) (ix2 P q) := by
  rw [shapeCast_self a0]
  rw [addf_apply, addf_apply, mulf_apply, mulf_apply, blockCol_apply, Cert.LibCombine.blockRow_apply, wholeCol_apply,
    Cert.LibCombine.wholeRow_apply, ha, hn, hr]

/-- ROWS SCALED, A BIAS ROW ADDED, RECTIFIED, SCALED AGAIN: entry (p, k) of the block's max(a0 ⊙ nd0 + r0, 0) ⊙ ns0 is
    entry (P, k) of the whole max(A ⊙ nd + R, 0) ⊙ ns. -/
theorem rectified_entry {a A N : ℕ}
    (a0 : FVec Ideal ⟨2, ![a, N]⟩ .f32) (nd0 ns0 : FVec Ideal ⟨2, ![a, 1]⟩ .f32) (r0 : FVec Ideal ⟨2, ![1, N]⟩ .f32)
    (A0 : FVec Ideal ⟨2, ![A, N]⟩ .f32) (nd ns : FVec Ideal ⟨2, ![A, 1]⟩ .f32) (R : FVec Ideal ⟨2, ![1, N]⟩ .f32)
    (h0 : (⟨2, ![a, N]⟩ : Shape).ShapeCasts ⟨2, ![a, N]⟩)
    (h1 : (⟨2, ![a, 1]⟩ : Shape).ShapeCasts ⟨2, ![a, 1]⟩) (h2 : (⟨2, ![a, 1]⟩ : Shape).Broadcasts ⟨2, ![a, N]⟩)
    (h5 : (⟨2, ![1, N]⟩ : Shape).ShapeCasts ⟨2, ![1, N]⟩) (h6 : (⟨2, ![1, N]⟩ : Shape).Broadcasts ⟨2, ![a, N]⟩)
    (h4 : (⟨2, ![A, 1]⟩ : Shape).BroadcastsInDim ⟨2, ![A, N]⟩ (![0, 1] : Fin 2 → Fin 2))
    (h7 : (⟨2, ![1, N]⟩ : Shape).BroadcastsInDim ⟨2, ![A, N]⟩ (![0, 1] : Fin 2 → Fin 2))
    (h8 : (⟨0, ![]⟩ : Shape).BroadcastsInDim ⟨2, ![A, N]⟩ (![] : Fin 0 → Fin 2))
    (p : Fin a) (k : Fin N) (P : Fin A)
    (ha : a0 (ix2 p k) = A0 (ix2 P k)) (hnd : nd0 (ix2 p (0 : Fin 1)) = nd (ix2 P (0 : Fin 1)))
    (hns : ns0 (ix2 p (0 : Fin 1)) = ns (ix2 P (0 : Fin 1))) (hr : r0 (ix2 0 k) = R (ix2 0 k)) :
    mulf (maximumf (addf (mulf (shapeCast ⟨2, ![a, N]⟩ a0 h0)
            (broadcastTo ⟨2, ![a, N]⟩ (shapeCast ⟨2, ![a, 1]⟩ nd0 h1) h2))
          (broadcastTo ⟨2, ![a, N]⟩ (shapeCast ⟨2, ![1, N]⟩ r0 h5) h6))
        (broadcast ⟨2, ![a, N]⟩ (Scalar.ofBits (F := Ideal) .f32 0x00000000#32)))
      (broadcastTo ⟨2, ![a, N]⟩ (shapeCast ⟨2, ![a, 1]⟩ ns0 h1) h2) (ix2 p k)
      = mulf (maximumf (addf (mulf A0 (broadcastInDim ⟨2, ![A, N]⟩ ![0, 1] h4 nd))
            (broadcastInDim ⟨2, ![A, N]⟩ ![0, 1] h7 R))
          (broadcastInDim ⟨2, ![A, N]⟩ ![] h8 (constant (F := Ideal) ⟨0, ![]⟩ .f32 0x00000000#32)))
        (broadcastInDim ⟨2, ![A, N]⟩ ![0, 1] h4 ns) (ix2 P k) := by
  rw [mulf_apply, mulf_apply, maximumf_apply, maximumf_apply,
    affine_entry a0 nd0 r0 A0 nd R h0 h1 h2 h5 h6 h4 h7 p k P ha hnd hr, blockCol_apply, wholeCol_apply, hns]
  rfl

/-- ROWS SCALED, A BIAS ROW ADDED, RECTIFIED, SCALED AGAIN, THEN A PRODUCT: entry (p, q) of the block's
    (max(a0 ⊙ nd0 + r0, 0) ⊙ ns0) · w0 accumulated into zero is entry (P, q) of the whole host product
    (max(A ⊙ nd + R, 0) ⊙ ns) · W, when row p of the block operands is row P of the whole ones, the bias rows agree and the
    right operands agree on column q. -/
theorem rectified_block_entry {M m K N : ℕ} {φ₂ : FTy}
    (dB : DotDims ⟨2, ![m, K]⟩ ⟨2, ![K, N]⟩ ⟨2, ![m, N]⟩) (dW : DotDims ⟨2, ![M, K]⟩ ⟨2, ![K, N]⟩ ⟨2, ![M, N]⟩)
    (hrB : dB.contr.rank = 1) (hsB : dB.contr.size ⟨0, by omega⟩ = K)
    (hlcB : dB.lhsContracting = [1]) (hrcB : dB.rhsContracting = [0])
    (hl0B : ∀ j k, (dB.lhsIdx j k 0).val = (j 0).val) (hr1B : ∀ j k, (dB.rhsIdx j k 1).val = (j 1).val)
    (hrW : dW.contr.rank = 1) (hsW : dW.contr.size ⟨0, by omega⟩ = K)
    (hlcW : dW.lhsContracting = [1]) (hrcW : dW.rhsContracting = [0])
    (hl0W : ∀ j k, (dW.lhsIdx j k 0).val = (j 0).val) (hr1W : ∀ j k, (dW.rhsIdx j k 1).val = (j 1).val)
    (A0 : FVec Ideal ⟨2, ![M, K]⟩ .f32) (nd ns : FVec Ideal ⟨2, ![M, 1]⟩ .f32) (R : FVec Ideal ⟨2, ![1, K]⟩ .f32)
    (W : FVec Ideal ⟨2, ![K, N]⟩ .f32)
    (a0 : FVec Ideal ⟨2, ![m, K]⟩ .f32) (nd0 ns0 : FVec Ideal ⟨2, ![m, 1]⟩ .f32) (r0 : FVec Ideal ⟨2, ![1, K]⟩ .f32)
    (w0 : FVec Ideal ⟨2, ![K, N]⟩ φ₂)
    (h0 : (⟨2, ![m, K]⟩ : Shape).ShapeCasts ⟨2, ![m, K]⟩)
    (h1 : (⟨2, ![m, 1]⟩ : Shape).ShapeCasts ⟨2, ![m, 1]⟩) (h2 : (⟨2, ![m, 1]⟩ : Shape).Broadcasts ⟨2, ![m, K]⟩)
    (h5 : (⟨2, ![1, K]⟩ : Shape).ShapeCasts ⟨2, ![1, K]⟩) (h6 : (⟨2, ![1, K]⟩ : Shape).Broadcasts ⟨2, ![m, K]⟩)
    (hb : FTy.bf16.bits < FTy.f32.bits) (hw1 : (⟨2, ![K, N]⟩ : Shape).ShapeCasts ⟨2, ![K, N]⟩)
    (h4 : (⟨2, ![M, 1]⟩ : Shape).BroadcastsInDim ⟨2, ![M, K]⟩ (![0, 1] : Fin 2 → Fin 2))
    (h7 : (⟨2, ![1, K]⟩ : Shape).BroadcastsInDim ⟨2, ![M, K]⟩ (![0, 1] : Fin 2 → Fin 2))
    (h8 : (⟨0, ![]⟩ : Shape).BroadcastsInDim ⟨2, ![M, K]⟩ (![] : Fin 0 → Fin 2))
    (p : Fin m) (q : Fin N) (P : Fin M)
    (ha : ∀ k : Fin K, a0 (ix2 p k) = A0 (ix2 P k)) (hnd : nd0 (ix2 p (0 : Fin 1)) = nd (ix2 P (0 : Fin 1)))
    (hns : ns0 (ix2 p (0 : Fin 1)) = ns (ix2 P (0 : Fin 1))) (hr : ∀ k : Fin K, r0 (ix2 0 k) = R (ix2 0 k))
    (hw : ∀ k : Fin K, w0 (ix2 k q) = W (ix2 k q)) :
    matmul dB none (truncf .bf16 (mulf (maximumf (addf (mulf (shapeCast ⟨2, ![m, K]⟩ a0 h0)
              (broadcastTo ⟨2, ![m, K]⟩ (shapeCast ⟨2, ![m, 1]⟩ nd0 h1) h2))
            (broadcastTo ⟨2, ![m, K]⟩ (shapeCast ⟨2, ![1, K]⟩ r0 h5) h6))
          (broadcast ⟨2, ![m, K]⟩ (Scalar.ofBits (F := Ideal) .f32 0x00000000#32)))
        (broadcastTo ⟨2, ![m, K]⟩ (shapeCast ⟨2, ![m, 1]⟩ ns0 h1) h2)) hb)
        (shapeCast ⟨2, ![K, N]⟩ w0 hw1) (constant ⟨2, ![m, N]⟩ .f32 0x00000000#32) (ix2 p q)
      = Host.dotGeneral dW none (mulf (maximumf (addf (mulf A0 (broadcastInDim ⟨2, ![M, K]⟩ ![0, 1] h4 nd))
              (broadcastInDim ⟨2, ![M, K]⟩ ![0, 1] h7 R))
            (broadcastInDim ⟨2, ![M, K]⟩ ![] h8 (constant (F := Ideal) ⟨0, ![]⟩ .f32 0x00000000#32)))
          (broadcastInDim ⟨2, ![M, K]⟩ ![0, 1] h4 ns)) W (ix2 P q) := by
  exact truncated_block_entry dB dW hrB hsB hlcB hrcB hl0B hr1B hrW hsW hlcW hrcW hl0W hr1W _ W _ w0 hb hw1 p q P
    (fun k => rectified_entry a0 nd0 ns0 r0 A0 nd ns R h0 h1 h2 h5 h6 h4 h7 h8 p k P (ha k) hnd hns (hr k)) hw

end Cert.LibScaledRows

end
-- ==== Proof.LibLeakyDense.lean ====
/-
  A dense graph-convolution layer with a leaky rectifier, one block of rows at a time, on the extended reals.

  The layer scales row P of a matrix A by a per-row factor n[P], multiplies by a weight matrix W, adds a bias row R, and
  (optionally) applies  y ↦ y if y > 0 else c · y.  Two facts:
    * computed on a block of consecutive rows with both product operands first narrowed to a shorter float format (the
      identity on the extended reals) and the product accumulated into zero, entry (p, q) of the block is the same sum of the
      same products as entry (P, q) of the whole (A ⊙ n) · W + R, when row p of the block operands is row P of the whole;
    * the rectifier written with the strict test  y > 0  and with the test  y ≥ 0  agree: they differ only at y = 0, where
      both give 0 (c · 0 = 0 on the extended reals).
  All extents are variables; the product records' own facts are hypotheses.
-/
import Idealize.ShloMosaic.Lib.Pipeline.Value
import Idealize.ShloMosaic.Lib.ValueIdx
import Idealize.ShloMosaic.PureOps.Ideal.Laws
import proofs.«173791_j8589935121_1_alg».proof.Proof.LibLayout
import proofs.«173791_j8589935121_1_alg».proof.Proof.LibHostDot
import proofs.«173791_j8589935121_1_alg».proof.Proof.LibMatRows
import proofs.«173791_j8589935121_1_alg».proof.Proof.LibCombine
import proofs.«173791_j8589935121_1_alg».proof.Proof.LibScaledRows

noncomputable section

namespace Cert.LibLeakyDense

open Idealize.ShloMosaic Idealize.ShloMosaic.ValueIdx

/-- ROWS SCALED, NARROWED, MULTIPLIED, A BIAS ROW ADDED: entry (p, q) of the block's (x0 ⊙ n0) · w0 + r0 is entry (P, q) of
    the whole host (A ⊙ n) · W + R. -/
theorem dense_entry {M m K N : ℕ}
    (dB : DotDims ⟨2, ![m, K]⟩ ⟨2, ![K, N]⟩ ⟨2, ![m, N]⟩) (dW : DotDims ⟨2, ![M, K]⟩ ⟨2, ![K, N]⟩ ⟨2, ![M, N]⟩)
    (hrB : dB.contr.rank = 1) (hsB : dB.contr.size ⟨0, by omega⟩ = K)
    (hlcB : dB.lhsContracting = [1]) (hrcB : dB.rhsContracting = [0])
    (hl0B : ∀ j k, (dB.lhsIdx j k 0).val = (j 0).val) (hr1B : ∀ j k, (dB.rhsIdx j k 1).val = (j 1).val)
    (hrW : dW.contr.rank = 1) (hsW : dW.contr.size ⟨0, by omega⟩ = K)
    (hlcW : dW.lhsContracting = [1]) (hrcW : dW.rhsContracting = [0])
    (hl0W : ∀ j k, (dW.lhsIdx j k 0).val = (j 0).val) (hr1W : ∀ j k, (dW.rhsIdx j k 1).val = (j 1).val)
    (A : FVec Ideal ⟨2, ![M, K]⟩ .f32) (n : FVec Ideal ⟨2, ![M, 1]⟩ .f32) (W : FVec Ideal ⟨2, ![K, N]⟩ .f32)
    (R : FVec Ideal ⟨2, ![1, N]⟩ .f32)
    (x0 : FVec Ideal ⟨2, ![m, K]⟩ .f32) (n0 : FVec Ideal ⟨2, ![m, 1]⟩ .f32) (w0 : FVec Ideal ⟨2, ![K, N]⟩ .f32)
    (r0 : FVec Ideal ⟨2, ![1, N]⟩ .f32)
    (h0 : (⟨2, ![m, K]⟩ : Shape).ShapeCasts ⟨2, ![m, K]⟩)
    (h1 : (⟨2, ![m, 1]⟩ : Shape).ShapeCasts ⟨2, ![m, 1]⟩) (h2 : (⟨2, ![m, 1]⟩ : Shape).Broadcasts ⟨2, ![m, K]⟩)
    (hb : FTy.bf16.bits < FTy.f32.bits)
    (h5 : (⟨2, ![1, N]⟩ : Shape).ShapeCasts ⟨2, ![1, N]⟩) (h6 : (⟨2, ![1, N]⟩ : Shape).Broadcasts ⟨2, ![m, N]⟩)
    (h4 : (⟨2, ![M, 1]⟩ : Shape).BroadcastsInDim ⟨2, ![M, K]⟩ (![0, 1] : Fin 2 → Fin 2))
    (h7 : (⟨2, ![1, N]⟩ : Shape).BroadcastsInDim ⟨2, ![M, N]⟩ (![0, 1] : Fin 2 → Fin 2))
    (p : Fin m) (q : Fin N) (P : Fin M)
    (hx : ∀ k : Fin K, x0 (ix2 p k) = A (ix2 P k)) (hn : n0 (ix2 p (0 : Fin 1)) = n (ix2 P (0 : Fin 1)))
    (hw : ∀ k : Fin K, w0 (ix2 k q) = W (ix2 k q)) (hr : r0 (ix2 0 q) = R (ix2 0 q)) :
    addf (matmul dB none
          (truncf .bf16 (mulf (shapeCast ⟨2, ![m, K]⟩ x0 h0)
            (broadcastTo ⟨2, ![m, K]⟩ (shapeCast ⟨2, ![m, 1]⟩ n0 h1) h2)) hb)
          (truncf .bf16 w0 hb) (constant ⟨2, ![m, N]⟩ .f32 0x00000000#32))
        (broadcastTo ⟨2, ![m, N]⟩ (shapeCast ⟨2, ![1, N]⟩ r0 h5) h6) (ix2 p q)
      = addf (Host.dotGeneral dW none (mulf A (broadcastInDim ⟨2, ![M, K]⟩ ![0, 1] h4 n)) W)
          (broadcastInDim ⟨2, ![M, N]⟩ ![0, 1] h7 R) (ix2 P q) := by
  rw [addf_apply, addf_apply, Cert.LibCombine.blockRow_apply r0 h5 h6 p q, Cert.LibCombine.wholeRow_apply R h7 P q, hr]
  refine congrArg (· + R (ix2 0 q)) ?_
  exact Cert.LibMatRows.block_entry (φ₁ := .bf16) (φ₂ := .bf16) dB dW hrB hsB hlcB hrcB hl0B hr1B hrW hsW hlcW hrcW hl0W hr1W
    _ W _ (truncf .bf16 w0 hb) p q P
    (fun k => by
      refine (truncf_apply _ hb (ix2 p k)).trans ?_
      rw [mulf_apply, mulf_apply, shapeCast_self x0, Cert.LibScaledRows.blockCol_apply n0 h1 h2 p k,
        Cert.LibScaledRows.wholeCol_apply n h4 P k, hx k, hn])
    (fun k => (truncf_apply w0 hb (ix2 k q)).trans (hw k))

/-- The rectifier with the strict test and with the non-strict test agree on every extended real. -/
theorem leaky_scalar (y c : EReal) :
    Scalar.select (FloatOps.cmpf (F := Ideal) (φ := .f32) .ogt y (Ideal.ofBits .f32 0x00000000#32)) y (c * y)
      = Scalar.select (FloatOps.cmpf (F := Ideal) (φ := .f32) .oge y (Ideal.ofBits .f32 0x00000000#32)) y (c * y) := by
  rw [Ideal.cmpf_def, Ideal.cmpf_def, Ideal.ofBits_zero_f32]
  unfold Ideal.cmp
  rcases lt_trichotomy (0 : EReal) y with h | h | h
  · simp only [h, le_of_lt h, decide_true]
  · subst h
    simp only [lt_self_iff_false, le_refl, decide_true, decide_false, mul_zero]
    rfl
  · have h1 : ¬ (0 : EReal) < y := not_lt.mpr (le_of_lt h)
    have h2 : ¬ (0 : EReal) ≤ y := not_le.mpr h
    simp only [h1, h2, decide_false]

end Cert.LibLeakyDense

end
-- ==== Proof.Layer1.lean ====
/-
  The first dense layer of the program, read off its row-blocked pipeline.

  The pipeline walks 20 blocks of 5000 consecutive rows.  At block t the body sees rows 5000·t … 5000·t + 4999 of the
  aggregated features A (64 columns) and of the per-node factor n (one column), the whole weight matrix W and the whole bias
  row R, and writes rows 5000·t … of the result: y if y > 0 else c · y, with y = (A ⊙ n) · W + R on those rows.  Entry (p, q)
  of block t is entry (5000·t + p, q) of the whole-matrix expression, the rectifier's strict test replaced by the non-strict
  one (they agree); the 20 blocks tile the 100000 rows, so the array the pipeline leaves IS the whole-matrix expression.
-/
import proofs.«173791_j8589935121_1_alg».proof.Proof.Gen.KernelIdeal.Frame
import proofs.«173791_j8589935121_1_alg».proof.Proof.Gen.ReferenceIdeal
import proofs.«173791_j8589935121_1_alg».proof.Proof.Spec
import proofs.«173791_j8589935121_1_alg».proof.Proof.LibLeakyDense
import Idealize.ShloMosaic.Lib.Pipeline.Value
import Idealize.ShloMosaic.Lib.ValueIdx

noncomputable section

namespace Cert.KernelIdeal.Layer1

open Cert.KernelIdeal Cert.KernelIdeal.Gen Idealize.ShloMosaic Idealize.ShloMosaic.TcCoe Idealize.SL.Sem
open Idealize.ShloMosaic.ValueIdx
open Idealize.ShloMosaic.Pipeline (Dat)

/-- The layer on whole matrices, the per-node factor a column and the bias a row: leaky ((A ⊙ n) · W + R). -/
def whole (A : FVec Ideal S100000x64 .f32) (n : FVec Ideal S100000x1 .f32) (W : FVec Ideal S64x128 .f32)
    (R : FVec Ideal S1x128 .f32) : FVec Ideal S100000x128 .f32 :=
  Cert.ReferenceIdeal.Spec.leaky (addf (Host.dotGeneral Cert.ReferenceIdeal.dot_S100000x64_S64x128_S100000x128_1_0_0_1_n_n none
      (mulf A (broadcastInDim S100000x64 ![0, 1] Cert.ReferenceIdeal.Facts₀.bcast_S100000x1_S100000x64_0_1 n)) W)
    (broadcastInDim S100000x128 ![0, 1] Cert.ReferenceIdeal.Facts₀.bcast_S1x128_S100000x128_0_1 R))

/-- What the body computes before the rectifier: (x0 ⊙ x1) · x2 + x3 on one block. -/
def pre (x0 : Vec Ideal S5000x64 .f32) (x1 : Vec Ideal S5000x1 .f32) (x2 : Vec Ideal S64x128 .f32) (x3 : Vec Ideal S1x128 .f32) :
    FVec Ideal S5000x128 .f32 :=
  addf (matmul dot_S5000x64_S64x128_S5000x128_1_0_0_1_n_n none
      (truncf .bf16 (mulf (shapeCast S5000x64 x0 Facts₀.shapeCasts_S5000x64_S5000x64)
        (broadcastTo S5000x64 (shapeCast S5000x1 x1 Facts₀.shapeCasts_S5000x1_S5000x1) Facts₀.broadcasts_S5000x1_S5000x64))
        Facts₀.bitsLt_bf16_f32)
      (truncf .bf16 x2 Facts₀.bitsLt_bf16_f32) (constant S5000x128 .f32 0x00000000#32))
    (broadcastTo S5000x128 (shapeCast S1x128 x3 Facts₀.shapeCasts_S1x128_S1x128) Facts₀.broadcasts_S1x128_S5000x128)

/-- The body's stored value is the rectifier (strict test) of `pre`. -/
theorem pay_eq (x0 : Vec Ideal S5000x64 .f32) (x1 : Vec Ideal S5000x1 .f32) (x2 : Vec Ideal S64x128 .f32) (x3 : Vec Ideal S1x128 .f32) :
    k0_pay1 (F := Ideal) x0 x1 x2 x3
      = select (cmpf .ogt (pre x0 x1 x2 x3) (broadcast S5000x128 (Scalar.ofBits (F := Ideal) .f32 0x00000000#32))) (pre x0 x1 x2 x3)
          (mulf (broadcast S5000x128 (Scalar.ofBits (F := Ideal) .f32 0x3C23D70A#32)) (pre x0 x1 x2 x3)) := rfl

/-- Entry (p, q) of a block's stored value is entry (P, q) of the whole layer, when row p of the block operands is row P of
    the whole ones and the weight and bias blocks are the whole weight and bias. -/
theorem pay_entry (A : FVec Ideal S100000x64 .f32) (n : FVec Ideal S100000x1 .f32) (W : FVec Ideal S64x128 .f32)
    (R : FVec Ideal S1x128 .f32)
    (x0 : Vec Ideal S5000x64 .f32) (x1 : Vec Ideal S5000x1 .f32) (x2 : Vec Ideal S64x128 .f32) (x3 : Vec Ideal S1x128 .f32)
    (p : Fin 5000) (q : Fin 128) (P : Fin 100000)
    (hx : ∀ k : Fin 64, x0 (ix2 p k) = A (ix2 P k)) (hn : x1 (ix2 p (0 : Fin 1)) = n (ix2 P (0 : Fin 1)))
    (hw : ∀ k : Fin 64, x2 (ix2 k q) = W (ix2 k q)) (hr : x3 (ix2 0 q) = R (ix2 0 q)) :
    k0_pay1 (F := Ideal) x0 x1 x2 x3 (ix2 p q) = whole A n W R (ix2 P q) := by
  have key : pre x0 x1 x2 x3 (ix2 p q)
      = addf (Host.dotGeneral Cert.ReferenceIdeal.dot_S100000x64_S64x128_S100000x128_1_0_0_1_n_n none
          (mulf A (broadcastInDim S100000x64 ![0, 1] Cert.ReferenceIdeal.Facts₀.bcast_S100000x1_S100000x64_0_1 n)) W)
        (broadcastInDim S100000x128 ![0, 1] Cert.ReferenceIdeal.Facts₀.bcast_S1x128_S100000x128_0_1 R) (ix2 P q) :=
    Cert.LibLeakyDense.dense_entry (M := 100000) (m := 5000) (K := 64) (N := 128)
      dot_S5000x64_S64x128_S5000x128_1_0_0_1_n_n Cert.ReferenceIdeal.dot_S100000x64_S64x128_S100000x128_1_0_0_1_n_n
      rfl rfl rfl rfl (fun _ _ => rfl) (fun _ _ => rfl) rfl rfl rfl rfl (fun _ _ => rfl) (fun _ _ => rfl)
      A n W R x0 x1 x2 x3 _ _ _ _ _ _ _ _ p q P hx hn hw hr
  rw [pay_eq]
  unfold whole Cert.ReferenceIdeal.Spec.leaky
  rw [select_apply, select_apply, cmpf_apply, cmpf_apply, mulf_apply, mulf_apply, broadcast_apply, broadcast_apply, key]
  exact Cert.LibLeakyDense.leaky_scalar _ _

/-! ## From the blocks to the array -/

section Blocks

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 20 blocks: the row-blocked windows sit at block row t, the weight and the bias at their
    one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row p of block t of the aggregated features is row 5000·t + p of the array. -/
theorem read_feat (c : Dev nD) (t : Fin cfg0.N) (p : Fin 5000) (k : Fin 64) (P : Fin 100000) (hP : P.val = 5000 * t.val + p.val) :
    (iblk0 V c 0 t : Vec Ideal S5000x64 .f32) (ix2 p k) = (V c main_v24 : S100000x64.Idx → EReal) (ix2 P k) := by
  obtain ⟨e0, e1, -⟩ := idx_facts t
  unfold iblk0
  rw [View.read_apply]
  show (V c main_v24 : S100000x64.Idx → EReal) _ = _
  refine congrArg _ (funext fun a => Fin.ext ?_)
  match a with
  | ⟨0, _⟩ => show win0_0.index t (0 : Fin 2) * 5000 + 1 * p.val = P.val; rw [e0, hP]; omega
  | ⟨1, _⟩ => show win0_0.index t (1 : Fin 2) * 64 + 1 * k.val = k.val; rw [e1]; omega

/-- Row p of block t of the per-node factor is row 5000·t + p of the column. -/
theorem read_norm (c : Dev nD) (t : Fin cfg0.N) (p : Fin 5000) (P : Fin 100000) (hP : P.val = 5000 * t.val + p.val) :
    (iblk0 V c 1 t : Vec Ideal S5000x1 .f32) (ix2 p (0 : Fin 1)) = (V c main_v25 : S100000x1.Idx → EReal) (ix2 P (0 : Fin 1)) := by
  obtain ⟨-, -, e0, e1, -⟩ := idx_facts t
  unfold iblk0
  rw [View.read_apply]
  show (V c main_v25 : S100000x1.Idx → EReal) _ = _
  refine congrArg _ (funext fun a => Fin.ext ?_)
  match a with
  | ⟨0, _⟩ => show win0_1.index t (0 : Fin 2) * 5000 + 1 * p.val = P.val; rw [e0, hP]; omega
  | ⟨1, _⟩ => show win0_1.index t (1 : Fin 2) * 1 + 1 * 0 = 0; rw [e1]

/-- The weight block is the whole weight matrix. -/
theorem read_weight (c : Dev nD) (t : Fin cfg0.N) (k : Fin 64) (q : Fin 128) :
    (iblk0 V c 2 t : Vec Ideal S64x128 .f32) (ix2 k q) = (V c main_arg3 : S64x128.Idx → EReal) (ix2 k q) := by
  obtain ⟨-, -, -, -, e0, e1, -⟩ := idx_facts t
  unfold iblk0
  rw [View.read_apply]
  show (V c main_arg3 : S64x128.Idx → EReal) _ = _
  refine congrArg _ (funext fun a => Fin.ext ?_)
  match a with
  | ⟨0, _⟩ => show win0_2.index t (0 : Fin 2) * 64 + 1 * k.val = k.val; rw [e0]; omega
  | ⟨1, _⟩ => show win0_2.index t (1 : Fin 2) * 128 + 1 * q.val = q.val; rw [e1]; omega

/-- The bias block is the whole bias row. -/
theorem read_bias (c : Dev nD) (t : Fin cfg0.N) (q : Fin 128) :
    (iblk0 V c 3 t : Vec Ideal S1x128 .f32) (ix2 0 q) = (V c main_v26 : S1x128.Idx → EReal) (ix2 0 q) := by
  obtain ⟨-, -, -, -, -, -, e0, e1, -⟩ := idx_facts t
  unfold iblk0
  rw [View.read_apply]
  show (V c main_v26 : S1x128.Idx → EReal) _ = _
  refine congrArg _ (funext fun a => Fin.ext ?_)
  match a with
  | ⟨0, _⟩ => show win0_3.index t (0 : Fin 2) * 1 + 1 * 0 = 0; rw [e0]
  | ⟨1, _⟩ => show win0_3.index t (1 : Fin 2) * 128 + 1 * q.val = q.val; rw [e1]; omega

/-- What block t writes back is block t of the whole layer of the arrays as the pipeline finds them. -/
theorem flushed_eq (c : Dev nD) (t : Fin cfg0.N) :
    (dat0 V c).flushed 4 t = ((cfg0.win 4).blk t).view.read (Elt Ideal)
      (whole (V c main_v24) (V c main_v25) (V c main_arg3) (V c main_v26)) := by
  show (cfg0.win 4).cut (grid0.coords t) ((dat0 V c).after 4 t) = _
  rw [after0_4]
  unfold out0_4
  rw [View.canon_unit_zero hz]
  simp only [View.ld_unit_zero (S := S5000x64) hz, View.ld_unit_zero (S := S5000x1) hz, View.ld_unit_zero (S := S64x128) hz,
    View.ld_unit_zero (S := S1x128) hz]
  funext y
  obtain ⟨p, q, rfl⟩ : ∃ (p : Fin 5000) (q : Fin 128), y = ix2 p q := ⟨y 0, y 1, eq_ix2 y⟩
  have hN : cfg0.N = 20 := N_0
  have hP : 5000 * t.val + p.val < 100000 := by have := t.isLt; omega
  obtain ⟨-, -, -, -, -, -, -, -, e0, e1⟩ := idx_facts t
  refine (pay_entry (V c main_v24) (V c main_v25) (V c main_arg3) (V c main_v26) _ _ _ _ p q ⟨5000 * t.val + p.val, hP⟩
    (fun k => read_feat V c t p k _ rfl) (read_norm V c t p _ rfl) (fun k => read_weight V c t k q) (read_bias V c t q)).trans ?_
  rw [View.read_apply]
  refine congrArg _ (funext fun a => Fin.ext ?_)
  match a with
  | ⟨0, _⟩ => show 5000 * t.val + p.val = win0_4.index t (0 : Fin 2) * 5000 + 1 * p.val; rw [e0]; omega
  | ⟨1, _⟩ => show q.val = win0_4.index t (1 : Fin 2) * 128 + 1 * q.val; rw [e1]; omega

/-- An index of the result array is in block t iff each coordinate is in the block's range on its axis. -/
theorem mem_blk (t : Fin cfg0.N) (i : S100000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v27).slice (win0_4.rect t)).set ↔ _
  rw [View.set_slice_whole, Rect.mem_set_unit]
  exact Iff.rfl

/-- Every row lies in the block numbered by its quotient by 5000. -/
theorem cover (i : S100000x128.Idx) :
    ∃ t : Fin cfg0.N, (cfg0.win 4).flush t = true ∧ i ∈ ((cfg0.win 4).blk t).view.set := by
  have hN : cfg0.N = 20 := N_0
  have h0 : (i 0).val < 100000 := (i 0).isLt
  have h1 : (i 1).val < 128 := (i 1).isLt
  let t : Fin cfg0.N := ⟨(i 0).val / 5000, by rw [hN]; omega⟩
  have ht : t.val = (i 0).val / 5000 := rfl
  obtain ⟨-, -, -, -, -, -, -, -, e0, e1⟩ := idx_facts t
  refine ⟨t, flush0_4 t, ?_⟩
  rw [mem_blk]
  intro a
  match a with
  | ⟨0, _⟩ =>
    show win0_4.index t (0 : Fin 2) * 5000 ≤ (i 0).val ∧ (i 0).val < win0_4.index t (0 : Fin 2) * 5000 + 5000
    rw [e0, ht]; omega
  | ⟨1, _⟩ =>
    show win0_4.index t (1 : Fin 2) * 128 ≤ (i 1).val ∧ (i 1).val < win0_4.index t (1 : Fin 2) * 128 + 128
    rw [e1]; omega

/-- THE ARRAY the pipeline leaves: the whole layer of the arrays it found. -/
theorem final (c : Dev nD) :
    (dat0 V c).arrAt 4 cfg0.N = whole (V c main_v24) (V c main_v25) (V c main_arg3) (V c main_v26) :=
  (dat0 V c).arrAt_eq_of_cover 4 _ (fun t _ => flushed_eq V c t) cover

end Blocks

end Cert.KernelIdeal.Layer1

end
-- ==== Proof.Layer2.lean ====
/-
  The second dense layer of the program, read off its row-blocked pipeline.

  The pipeline walks 20 blocks of 5000 consecutive rows.  At block t the body sees rows 5000·t … 5000·t + 4999 of the
  aggregated features A (128 columns) and of the per-node factor n (one column), the whole weight matrix W and the whole bias
  row R, and writes rows 5000·t … of (A ⊙ n) · W + R.  Entry (p, q) of block t is entry (5000·t + p, q) of the whole-matrix
  expression; the 20 blocks tile the 100000 rows, so the array the pipeline leaves IS the whole-matrix expression.
-/
import proofs.«173791_j8589935121_1_alg».proof.Proof.Gen.KernelIdeal.Frame
import proofs.«173791_j8589935121_1_alg».proof.Proof.Gen.ReferenceIdeal
import proofs.«173791_j8589935121_1_alg».proof.Proof.Spec
import proofs.«173791_j8589935121_1_alg».proof.Proof.LibLeakyDense
import Idealize.ShloMosaic.Lib.Pipeline.Value
import Idealize.ShloMosaic.Lib.ValueIdx

noncomputable section

namespace Cert.KernelIdeal.Layer2

open Cert.KernelIdeal Cert.KernelIdeal.Gen Idealize.ShloMosaic Idealize.ShloMosaic.TcCoe Idealize.SL.Sem
open Idealize.ShloMosaic.ValueIdx
open Idealize.ShloMosaic.Pipeline (Dat)

/-- The layer on whole matrices, the per-node factor a column and the bias a row: (A ⊙ n) · W + R. -/
def whole (A : FVec Ideal S100000x128 .f32) (n : FVec Ideal S100000x1 .f32) (W : FVec Ideal S128x128 .f32)
    (R : FVec Ideal S1x128 .f32) : FVec Ideal S100000x128 .f32 :=
  addf (Host.dotGeneral Cert.ReferenceIdeal.dot_S100000x128_S128x128_S100000x128_1_0_0_1_n_n none
      (mulf A (broadcastInDim S100000x128 ![0, 1] Cert.ReferenceIdeal.Facts₀.bcast_S100000x1_S100000x128_0_1 n)) W)
    (broadcastInDim S100000x128 ![0, 1] Cert.ReferenceIdeal.Facts₀.bcast_S1x128_S100000x128_0_1 R)

/-- What the body computes: (x0 ⊙ x1) · x2 + x3 on one block. -/
def pre (x0 : Vec Ideal S5000x128 .f32) (x1 : Vec Ideal S5000x1 .f32) (x2 : Vec Ideal S128x128 .f32) (x3 : Vec Ideal S1x128 .f32) :
    FVec Ideal S5000x128 .f32 :=
  addf (matmul dot_S5000x128_S128x128_S5000x128_1_0_0_1_n_n none
      (truncf .bf16 (mulf (shapeCast S5000x128 x0 Facts₀.shapeCasts_S5000x128_S5000x128)
        (broadcastTo S5000x128 (shapeCast S5000x1 x1 Facts₀.shapeCasts_S5000x1_S5000x1) Facts₀.broadcasts_S5000x1_S5000x128))
        Facts₀.bitsLt_bf16_f32)
      (truncf .bf16 x2 Facts₀.bitsLt_bf16_f32) (constant S5000x128 .f32 0x00000000#32))
    (broadcastTo S5000x128 (shapeCast S1x128 x3 Facts₀.shapeCasts_S1x128_S1x128) Facts₀.broadcasts_S1x128_S5000x128)

/-- The body's stored value is `pre`. -/
theorem pay_eq (x0 : Vec Ideal S5000x128 .f32) (x1 : Vec Ideal S5000x1 .f32) (x2 : Vec Ideal S128x128 .f32) (x3 : Vec Ideal S1x128 .f32) :
    k1_pay1 (F := Ideal) x0 x1 x2 x3 = pre x0 x1 x2 x3 := rfl

/-- Entry (p, q) of a block's stored value is entry (P, q) of the whole layer, when row p of the block operands is row P of
    the whole ones and the weight and bias blocks are the whole weight and bias. -/
theorem pay_entry (A : FVec Ideal S100000x128 .f32) (n : FVec Ideal S100000x1 .f32) (W : FVec Ideal S128x128 .f32)
    (R : FVec Ideal S1x128 .f32)
    (x0 : Vec Ideal S5000x128 .f32) (x1 : Vec Ideal S5000x1 .f32) (x2 : Vec Ideal S128x128 .f32) (x3 : Vec Ideal S1x128 .f32)
    (p : Fin 5000) (q : Fin 128) (P : Fin 100000)
    (hx : ∀ k : Fin 128, x0 (ix2 p k) = A (ix2 P k)) (hn : x1 (ix2 p (0 : Fin 1)) = n (ix2 P (0 : Fin 1)))
    (hw : ∀ k : Fin 128, x2 (ix2 k q) = W (ix2 k q)) (hr : x3 (ix2 0 q) = R (ix2 0 q)) :
    k1_pay1 (F := Ideal) x0 x1 x2 x3 (ix2 p q) = whole A n W R (ix2 P q) := by
  have key : pre x0 x1 x2 x3 (ix2 p q)
      = addf (Host.dotGeneral Cert.ReferenceIdeal.dot_S100000x128_S128x128_S100000x128_1_0_0_1_n_n none
          (mulf A (broadcastInDim S100000x128 ![0, 1] Cert.ReferenceIdeal.Facts₀.bcast_S100000x1_S100000x128_0_1 n)) W)
        (broadcastInDim S100000x128 ![0, 1] Cert.ReferenceIdeal.Facts₀.bcast_S1x128_S100000x128_0_1 R) (ix2 P q) :=
    Cert.LibLeakyDense.dense_entry (M := 100000) (m := 5000) (K := 128) (N := 128)
      dot_S5000x128_S128x128_S5000x128_1_0_0_1_n_n Cert.ReferenceIdeal.dot_S100000x128_S128x128_S100000x128_1_0_0_1_n_n
      rfl rfl rfl rfl (fun _ _ => rfl) (fun _ _ => rfl) rfl rfl rfl rfl (fun _ _ => rfl) (fun _ _ => rfl)
      A n W R x0 x1 x2 x3 _ _ _ _ _ _ _ _ p q P hx hn hw hr
  rw [pay_eq]
  exact key

/-! ## From the blocks to the array -/

section Blocks

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 20 blocks: the row-blocked windows sit at block row t, the weight and the bias at their
    one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row p of block t of the aggregated features is row 5000·t + p of the array. -/
theorem read_feat (c : Dev nD) (t : Fin cfg1.N) (p : Fin 5000) (k : Fin 128) (P : Fin 100000) (hP : P.val = 5000 * t.val + p.val) :
    (iblk1 V c 0 t : Vec Ideal S5000x128 .f32) (ix2 p k) = (V c main_v40 : S100000x128.Idx → EReal) (ix2 P k) := by
  obtain ⟨e0, e1, -⟩ := idx_facts t
  unfold iblk1
  rw [View.read_apply]
  show (V c main_v40 : S100000x128.Idx → EReal) _ = _
  refine congrArg _ (funext fun a => Fin.ext ?_)
  match a with
  | ⟨0, _⟩ => show win1_0.index t (0 : Fin 2) * 5000 + 1 * p.val = P.val; rw [e0, hP]; omega
  | ⟨1, _⟩ => show win1_0.index t (1 : Fin 2) * 128 + 1 * k.val = k.val; rw [e1]; omega

/-- Row p of block t of the per-node factor is row 5000·t + p of the column. -/
theorem read_norm (c : Dev nD) (t : Fin cfg1.N) (p : Fin 5000) (P : Fin 100000) (hP : P.val = 5000 * t.val + p.val) :
    (iblk1 V c 1 t : Vec Ideal S5000x1 .f32) (ix2 p (0 : Fin 1)) = (V c main_v41 : S100000x1.Idx → EReal) (ix2 P (0 : Fin 1)) := by
  obtain ⟨-, -, e0, e1, -⟩ := idx_facts t
  unfold iblk1
  rw [View.read_apply]
  show (V c main_v41 : S100000x1.Idx → EReal) _ = _
  refine congrArg _ (funext fun a => Fin.ext ?_)
  match a with
  | ⟨0, _⟩ => show win1_1.index t (0 : Fin 2) * 5000 + 1 * p.val = P.val; rw [e0, hP]; omega
  | ⟨1, _⟩ => show win1_1.index t (1 : Fin 2) * 1 + 1 * 0 = 0; rw [e1]

/-- The weight block is the whole weight matrix. -/
theorem read_weight (c : Dev nD) (t : Fin cfg1.N) (k : Fin 128) (q : Fin 128) :
    (iblk1 V c 2 t : Vec Ideal S128x128 .f32) (ix2 k q) = (V c main_arg5 : S128x128.Idx → EReal) (ix2 k q) := by
  obtain ⟨-, -, -, -, e0, e1, -⟩ := idx_facts t
  unfold iblk1
  rw [View.read_apply]
  show (V c main_arg5 : S128x128.Idx → EReal) _ = _
  refine congrArg _ (funext fun a => Fin.ext ?_)
  match a with
  | ⟨0, _⟩ => show win1_2.index t (0 : Fin 2) * 128 + 1 * k.val = k.val; rw [e0]; omega
  | ⟨1, _⟩ => show win1_2.index t (1 : Fin 2) * 128 + 1 * q.val = q.val; rw [e1]; omega

/-- The bias block is the whole bias row. -/
theorem read_bias (c : Dev nD) (t : Fin cfg1.N) (q : Fin 128) :
    (iblk1 V c 3 t : Vec Ideal S1x128 .f32) (ix2 0 q) = (V c main_v42 : S1x128.Idx → EReal) (ix2 0 q) := by
  obtain ⟨-, -, -, -, -, -, e0, e1, -⟩ := idx_facts t
  unfold iblk1
  rw [View.read_apply]
  show (V c main_v42 : S1x128.Idx → EReal) _ = _
  refine congrArg _ (funext fun a => Fin.ext ?_)
  match a with
  | ⟨0, _⟩ => show win1_3.index t (0 : Fin 2) * 1 + 1 * 0 = 0; rw [e0]
  | ⟨1, _⟩ => show win1_3.index t (1 : Fin 2) * 128 + 1 * q.val = q.val; rw [e1]; omega

/-- What block t writes back is block t of the whole layer of the arrays as the pipeline finds them. -/
theorem flushed_eq (c : Dev nD) (t : Fin cfg1.N) :
    (dat1 V c).flushed 4 t = ((cfg1.win 4).blk t).view.read (Elt Ideal)
      (whole (V c main_v40) (V c main_v41) (V c main_arg5) (V c main_v42)) := by
  show (cfg1.win 4).cut (grid1.coords t) ((dat1 V c).after 4 t) = _
  rw [after1_4]
  unfold out1_4
  rw [View.canon_unit_zero hz]
  simp only [View.ld_unit_zero (S := S5000x128) hz, View.ld_unit_zero (S := S5000x1) hz, View.ld_unit_zero (S := S128x128) hz,
    View.ld_unit_zero (S := S1x128) hz]
  funext y
  obtain ⟨p, q, rfl⟩ : ∃ (p : Fin 5000) (q : Fin 128), y = ix2 p q := ⟨y 0, y 1, eq_ix2 y⟩
  have hN : cfg1.N = 20 := N_1
  have hP : 5000 * t.val + p.val < 100000 := by have := t.isLt; omega
  obtain ⟨-, -, -, -, -, -, -, -, e0, e1⟩ := idx_facts t
  refine (pay_entry (V c main_v40) (V c main_v41) (V c main_arg5) (V c main_v42) _ _ _ _ p q ⟨5000 * t.val + p.val, hP⟩
    (fun k => read_feat V c t p k _ rfl) (read_norm V c t p _ rfl) (fun k => read_weight V c t k q) (read_bias V c t q)).trans ?_
  rw [View.read_apply]
  refine congrArg _ (funext fun a => Fin.ext ?_)
  match a with
  | ⟨0, _⟩ => show 5000 * t.val + p.val = win1_4.index t (0 : Fin 2) * 5000 + 1 * p.val; rw [e0]; omega
  | ⟨1, _⟩ => show q.val = win1_4.index t (1 : Fin 2) * 128 + 1 * q.val; rw [e1]; omega

/-- An index of the result array is in block t iff each coordinate is in the block's range on its axis. -/
theorem mem_blk (t : Fin cfg1.N) (i : S100000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v43).slice (win1_4.rect t)).set ↔ _
  rw [View.set_slice_whole, Rect.mem_set_unit]
  exact Iff.rfl

/-- Every row lies in the block numbered by its quotient by 5000. -/
theorem cover (i : S100000x128.Idx) :
    ∃ t : Fin cfg1.N, (cfg1.win 4).flush t = true ∧ i ∈ ((cfg1.win 4).blk t).view.set := by
  have hN : cfg1.N = 20 := N_1
  have h0 : (i 0).val < 100000 := (i 0).isLt
  have h1 : (i 1).val < 128 := (i 1).isLt
  let t : Fin cfg1.N := ⟨(i 0).val / 5000, by rw [hN]; omega⟩
  have ht : t.val = (i 0).val / 5000 := rfl
  obtain ⟨-, -, -, -, -, -, -, -, e0, e1⟩ := idx_facts t
  refine ⟨t, flush1_4 t, ?_⟩
  rw [mem_blk]
  intro a
  match a with
  | ⟨0, _⟩ =>
    show win1_4.index t (0 : Fin 2) * 5000 ≤ (i 0).val ∧ (i 0).val < win1_4.index t (0 : Fin 2) * 5000 + 5000
    rw [e0, ht]; omega
  | ⟨1, _⟩ =>
    show win1_4.index t (1 : Fin 2) * 128 ≤ (i 1).val ∧ (i 1).val < win1_4.index t (1 : Fin 2) * 128 + 128
    rw [e1]; omega

/-- THE ARRAY the pipeline leaves: the whole layer of the arrays it found. -/
theorem final (c : Dev nD) :
    (dat1 V c).arrAt 4 cfg1.N = whole (V c main_v40) (V c main_v41) (V c main_arg5) (V c main_v42) :=
  (dat1 V c).arrAt_eq_of_cover 4 _ (fun t _ => flushed_eq V c t) cover

end Blocks

end Cert.KernelIdeal.Layer2

end
-- ==== Proof.KerHost.lean ====
/-
  The whole-array operations the kernel program runs around its two launches, read back as functions of the buffer
  contents they start from, in the vocabulary of the two-layer graph convolution's specification (E = 1600000 edges
  src[e] → dst[e] over N = 100000 nodes).

  Before the first launch, 40 operations in five stretches: the degree of each node under src (ones scatter-added
  into zeros at the edges' sources), clipped below at 1, its reciprocal square root: the src factor; the same under
  dst: the dst factor; the rows of x scaled by the src factor, gathered at the edges' sources (a negative index moved
  up by N) and scatter-added into zeros at the edges' destinations: layer one's aggregate; the dst factor reshaped to
  a column and layer one's bias to a row, as the first launch takes them.
  Between the launches, 18 operations: the same aggregation over 128 columns of the first launch's result (with the
  src factor as the buffers hold it), and the dst factor and layer two's bias reshaped to a column and a row.
  Every value has a buffer of its own, written once; a buffer no operation writes keeps its contents.

  The kernel program states its scatter and gather dimension records itself; field by field they are the reference
  program's, over which the specification is written.
-/
import proofs.«173791_j8589935121_1_alg».proof.Proof.Gen.KernelIdeal.Frame
import proofs.«173791_j8589935121_1_alg».proof.Proof.Gen.ReferenceIdeal
import proofs.«173791_j8589935121_1_alg».proof.Proof.Spec
import Idealize.ShloMosaic.Lib.StableHlo.Run

noncomputable section

namespace Cert.KernelIdeal.KerHost

open Cert.KernelIdeal Cert.KernelIdeal.Gen Idealize.ShloMosaic Idealize.ShloMosaic.TcCoe Idealize.SL.Sem Idealize.ShloMosaic.StableHlo

variable {F : FTy → Type} [FloatOps F]

/-! ## The dimension records: the kernel program's are the reference program's -/

theorem scatter_S100000_S1600000x1_S1600000_n_0_0_1_eq :
    Cert.KernelIdeal.scatter_S100000_S1600000x1_S1600000_n_0_0_1 = Cert.ReferenceIdeal.scatter_S100000_S1600000x1_S1600000_n_0_0_1 := rfl
theorem gather_S100000x64_S1600000x1_S1600000x64_1_0_n_n_0_1_164_eq :
    Cert.KernelIdeal.gather_S100000x64_S1600000x1_S1600000x64_1_0_n_n_0_1_164 = Cert.ReferenceIdeal.gather_S100000x64_S1600000x1_S1600000x64_1_0_n_n_0_1_164 := rfl
theorem scatter_S100000x64_S1600000x1_S1600000x64_1_0_0_1_eq :
    Cert.KernelIdeal.scatter_S100000x64_S1600000x1_S1600000x64_1_0_0_1 = Cert.ReferenceIdeal.scatter_S100000x64_S1600000x1_S1600000x64_1_0_0_1 := rfl
theorem gather_S100000x128_S1600000x1_S1600000x128_1_0_n_n_0_1_1128_eq :
    Cert.KernelIdeal.gather_S100000x128_S1600000x1_S1600000x128_1_0_n_n_0_1_1128 = Cert.ReferenceIdeal.gather_S100000x128_S1600000x1_S1600000x128_1_0_n_n_0_1_1128 := rfl
theorem scatter_S100000x128_S1600000x1_S1600000x128_1_0_0_1_eq :
    Cert.KernelIdeal.scatter_S100000x128_S1600000x1_S1600000x128_1_0_0_1 = Cert.ReferenceIdeal.scatter_S100000x128_S1600000x1_S1600000x128_1_0_0_1 := rfl

/-! ## Before the first launch -/

/-- The buffer contents after the five stretches that precede the first launch, from contents `V`. -/
abbrev pre0 (V : Valuation τ sig (Elt F)) : Valuation τ sig (Elt F) :=
  after hostOps0_4 (after hostOps0_3 (after hostOps0_2 (after hostOps0_1 (after hostOps0 V))))

attribute [local irreducible] Host.gather Host.scatterAdd Host.rsqrt in
set_option maxRecDepth 8192 in
/-- The src factor: node v ↦ 1 / sqrt (max 1 (number of edges with source v)), the count a scatter-add of ones into zeros (the clip's scalar conversion is the identity). -/
theorem pre0_v5 (V : Valuation τ sig (Elt F)) : (pre0 V (Proc.devRef .tc main_v5) : FVec F S100000 .f32) = Cert.ReferenceIdeal.Spec.invSqrtDeg (V (Proc.devRef .tc main_arg1)) := by
  after_results_simp
  rfl

attribute [local irreducible] Host.gather Host.scatterAdd Host.rsqrt in
set_option maxRecDepth 8192 in
/-- The dst factor: the same over the edges' destinations. -/
theorem pre0_v11 (V : Valuation τ sig (Elt F)) : (pre0 V (Proc.devRef .tc main_v11) : FVec F S100000 .f32) = Cert.ReferenceIdeal.Spec.invSqrtDeg (V (Proc.devRef .tc main_arg2)) := by
  after_results_simp
  rfl

attribute [local irreducible] Host.gather Host.scatterAdd Host.rsqrt in
set_option maxRecDepth 8192 in
/-- Layer one's aggregate: row v ↦ the sum over the edges into v of the source's row of x scaled by the src factor. -/
theorem pre0_v24 (V : Valuation τ sig (Elt F)) : (pre0 V (Proc.devRef .tc main_v24) : FVec F S100000x64 .f32) = Cert.ReferenceIdeal.Spec.aggregate64 (V (Proc.devRef .tc main_arg0)) (Cert.ReferenceIdeal.Spec.invSqrtDeg (V (Proc.devRef .tc main_arg1))) (V (Proc.devRef .tc main_arg1)) (V (Proc.devRef .tc main_arg2)) := by
  after_results_simp
  rfl

attribute [local irreducible] Host.gather Host.scatterAdd Host.rsqrt in
set_option maxRecDepth 8192 in
/-- The dst factor as a column of N rows. -/
theorem pre0_v25 (V : Valuation τ sig (Elt F)) : (pre0 V (Proc.devRef .tc main_v25) : FVec F S100000x1 .f32) = shapeCast S100000x1 (Cert.ReferenceIdeal.Spec.invSqrtDeg (F := F) (V (Proc.devRef .tc main_arg2))) Facts₀.shapeCasts_S100000_S100000x1 := by
  after_results_simp
  rfl

attribute [local irreducible] Host.gather Host.scatterAdd Host.rsqrt in
set_option maxRecDepth 8192 in
/-- Layer one's bias as a row. -/
theorem pre0_v26 (V : Valuation τ sig (Elt F)) : (pre0 V (Proc.devRef .tc main_v26) : FVec F S1x128 .f32) = shapeCast S1x128 (V (Proc.devRef .tc main_arg4) : FVec F S128 .f32) Facts₀.shapeCasts_S128_S1x128 := by
  after_results_simp
  rfl

/-- None of the 40 operations writes argument 0's buffer. -/
theorem pre0_arg0 (V : Valuation τ sig (Elt F)) : pre0 V (Proc.devRef .tc main_arg0) = V (Proc.devRef .tc main_arg0) := by
  after_results_simp

/-- None of the 40 operations writes argument 1's buffer. -/
theorem pre0_arg1 (V : Valuation τ sig (Elt F)) : pre0 V (Proc.devRef .tc main_arg1) = V (Proc.devRef .tc main_arg1) := by
  after_results_simp

/-- None of the 40 operations writes argument 2's buffer. -/
theorem pre0_arg2 (V : Valuation τ sig (Elt F)) : pre0 V (Proc.devRef .tc main_arg2) = V (Proc.devRef .tc main_arg2) := by
  after_results_simp

/-- None of the 40 operations writes argument 3's buffer. -/
theorem pre0_arg3 (V : Valuation τ sig (Elt F)) : pre0 V (Proc.devRef .tc main_arg3) = V (Proc.devRef .tc main_arg3) := by
  after_results_simp

/-- None of the 40 operations writes argument 4's buffer. -/
theorem pre0_arg4 (V : Valuation τ sig (Elt F)) : pre0 V (Proc.devRef .tc main_arg4) = V (Proc.devRef .tc main_arg4) := by
  after_results_simp

/-- None of the 40 operations writes argument 5's buffer. -/
theorem pre0_arg5 (V : Valuation τ sig (Elt F)) : pre0 V (Proc.devRef .tc main_arg5) = V (Proc.devRef .tc main_arg5) := by
  after_results_simp

/-- None of the 40 operations writes argument 6's buffer. -/
theorem pre0_arg6 (V : Valuation τ sig (Elt F)) : pre0 V (Proc.devRef .tc main_arg6) = V (Proc.devRef .tc main_arg6) := by
  after_results_simp

/-! ## Between the launches -/

attribute [local irreducible] Host.gather Host.scatterAdd Host.rsqrt in
set_option maxRecDepth 8192 in
/-- Layer two's aggregate over 128 columns: row v ↦ the sum over the edges into v of the source's row of the first launch's result scaled by the src factor, both as the buffers hold them. -/
theorem mid_v40 (V : Valuation τ sig (Elt F)) : (after hostOps1 V (Proc.devRef .tc main_v40) : FVec F S100000x128 .f32) = Cert.ReferenceIdeal.Spec.aggregate128 (V (Proc.devRef .tc main_v27)) (V (Proc.devRef .tc main_v5)) (V (Proc.devRef .tc main_arg1)) (V (Proc.devRef .tc main_arg2)) := by
  after_results_simp
  rfl

attribute [local irreducible] Host.gather Host.scatterAdd Host.rsqrt in
set_option maxRecDepth 8192 in
/-- The dst factor, as its buffer holds it, as a column of N rows. -/
theorem mid_v41 (V : Valuation τ sig (Elt F)) : (after hostOps1 V (Proc.devRef .tc main_v41) : FVec F S100000x1 .f32) = shapeCast S100000x1 (V (Proc.devRef .tc main_v11) : FVec F S100000 .f32) Facts₀.shapeCasts_S100000_S100000x1 := by
  after_results_simp
  rfl

attribute [local irreducible] Host.gather Host.scatterAdd Host.rsqrt in
set_option maxRecDepth 8192 in
/-- Layer two's bias as a row. -/
theorem mid_v42 (V : Valuation τ sig (Elt F)) : (after hostOps1 V (Proc.devRef .tc main_v42) : FVec F S1x128 .f32) = shapeCast S1x128 (V (Proc.devRef .tc main_arg6) : FVec F S128 .f32) Facts₀.shapeCasts_S128_S1x128 := by
  after_results_simp
  rfl

/-- None of the 18 operations writes layer two's weight matrix. -/
theorem mid_arg5 (V : Valuation τ sig (Elt F)) : after hostOps1 V (Proc.devRef .tc main_arg5) = V (Proc.devRef .tc main_arg5) := by
  after_results_simp

end Cert.KernelIdeal.KerHost

end
-- ==== Proof.KerValue.lean ====
/-
  The program's result as ONE function of its arguments: the two pipelines' arrays and the host operations around them
  composed, and identified with the specification's two-layer graph convolution.
-/
import proofs.«173791_j8589935121_1_alg».proof.Proof.Gen.KernelIdeal.Frame
import proofs.«173791_j8589935121_1_alg».proof.Proof.Gen.ReferenceIdeal
import proofs.«173791_j8589935121_1_alg».proof.Proof.Spec
import proofs.«173791_j8589935121_1_alg».proof.Proof.Layer1
import proofs.«173791_j8589935121_1_alg».proof.Proof.Layer2
import proofs.«173791_j8589935121_1_alg».proof.Proof.KerHost
import Idealize.ShloMosaic.Lib.StableHlo.Run

noncomputable section

namespace Cert.KernelIdeal.KerValue

open Cert.KernelIdeal Cert.KernelIdeal.Gen Idealize.ShloMosaic Idealize.ShloMosaic.TcCoe Idealize.SL.Sem Idealize.ShloMosaic.StableHlo

/-- The first layer with its per-node factor reshaped to a column and its bias reshaped to a row is the specification's
    dense layer followed by the rectifier: a vector reshaped to a column (to a row) is the vector given a unit axis. -/
theorem layer1_eq (A : FVec Ideal S100000x64 .f32) (n : FVec Ideal S100000 .f32) (W : FVec Ideal S64x128 .f32)
    (b : FVec Ideal S128 .f32) :
    Layer1.whole A (shapeCast S100000x1 n Facts₀.shapeCasts_S100000_S100000x1) W (shapeCast S1x128 b Facts₀.shapeCasts_S128_S1x128)
      = Cert.ReferenceIdeal.Spec.leaky (Cert.ReferenceIdeal.Spec.dense64 A n W b) := by
  rw [Cert.LibScaledRows.reshapeCol_eq n Facts₀.shapeCasts_S100000_S100000x1 Cert.ReferenceIdeal.Facts₀.bcast_S100000_S100000x1_0,
    Cert.LibCombine.reshapeRow_eq b Facts₀.shapeCasts_S128_S1x128 Cert.ReferenceIdeal.Facts₀.bcast_S128_S1x128_1]
  rfl

/-- The second layer likewise is the specification's dense layer. -/
theorem layer2_eq (A : FVec Ideal S100000x128 .f32) (n : FVec Ideal S100000 .f32) (W : FVec Ideal S128x128 .f32)
    (b : FVec Ideal S128 .f32) :
    Layer2.whole A (shapeCast S100000x1 n Facts₀.shapeCasts_S100000_S100000x1) W (shapeCast S1x128 b Facts₀.shapeCasts_S128_S1x128)
      = Cert.ReferenceIdeal.Spec.dense128 A n W b := by
  rw [Cert.LibScaledRows.reshapeCol_eq n Facts₀.shapeCasts_S100000_S100000x1 Cert.ReferenceIdeal.Facts₀.bcast_S100000_S100000x1_0,
    Cert.LibCombine.reshapeRow_eq b Facts₀.shapeCasts_S128_S1x128 Cert.ReferenceIdeal.Facts₀.bcast_S128_S1x128_1]
  rfl

variable (m : (ℓ : Loc nD τ sig) → Buf (Elt Ideal) ℓ) (ρ : Dev nD → PrngReg)

/-- THE RESULT: what the result buffer holds at the last segment boundary is the two-layer function of the launch contents
    of the seven arguments. Followed back: the second pipeline's array is the second dense layer of what the host
    operations between the launches left (the aggregation of the first pipeline's array, the factors, the weights), the
    first pipeline's array is the rectified first dense layer of what the host operations before it left. -/
theorem value (c : Dev nD) :
    (W8 m ρ c (Proc.devRef .tc main_v43) : FVec Ideal S100000x128 .f32)
      = Cert.ReferenceIdeal.Spec.whole (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) := by
  -- the second pipeline's array
  have e8 : W8 m ρ c (Proc.devRef .tc main_v43) = (dat1 (V7 m ρ) c).arrAt 4 cfg1.N := W8_arr m ρ c 4
  have e7 := Layer2.final (V7 m ρ) c
  -- what the host operations between the launches left, from the first pipeline's exit contents
  have a40 := KerHost.mid_v40 (F := Ideal) (W6 m ρ c)
  have a41 := KerHost.mid_v41 (F := Ideal) (W6 m ρ c)
  have a42 := KerHost.mid_v42 (F := Ideal) (W6 m ρ c)
  have a5 := KerHost.mid_arg5 (F := Ideal) (W6 m ρ c)
  -- the first pipeline's exit contents: its output array, and the buffers it does not touch
  have b27 : W6 m ρ c (Proc.devRef .tc main_v27) = (dat0 (V5 m ρ) c).arrAt 4 cfg0.N := W6_arr m ρ c 4
  have b5 : W6 m ρ c (Proc.devRef .tc main_v5) = W5 m ρ c (Proc.devRef .tc main_v5) := W6_of_ne m ρ c main_v5 (by decide)
  have b11 : W6 m ρ c (Proc.devRef .tc main_v11) = W5 m ρ c (Proc.devRef .tc main_v11) := W6_of_ne m ρ c main_v11 (by decide)
  have b1 : W6 m ρ c (Proc.devRef .tc main_arg1) = W5 m ρ c (Proc.devRef .tc main_arg1) := W6_of_ne m ρ c main_arg1 (by decide)
  have b2 : W6 m ρ c (Proc.devRef .tc main_arg2) = W5 m ρ c (Proc.devRef .tc main_arg2) := W6_of_ne m ρ c main_arg2 (by decide)
  have b5' : W6 m ρ c (Proc.devRef .tc main_arg5) = W5 m ρ c (Proc.devRef .tc main_arg5) := W6_of_ne m ρ c main_arg5 (by decide)
  have b6 : W6 m ρ c (Proc.devRef .tc main_arg6) = W5 m ρ c (Proc.devRef .tc main_arg6) := W6_of_ne m ρ c main_arg6 (by decide)
  have f0 := Layer1.final (V5 m ρ) c
  -- what the host operations before the first launch left, from the launch contents
  have c5 := KerHost.pre0_v5 (F := Ideal) (W0 m ρ c)
  have c11 := KerHost.pre0_v11 (F := Ideal) (W0 m ρ c)
  have c24 := KerHost.pre0_v24 (F := Ideal) (W0 m ρ c)
  have c25 := KerHost.pre0_v25 (F := Ideal) (W0 m ρ c)
  have c26 := KerHost.pre0_v26 (F := Ideal) (W0 m ρ c)
  have d1 := KerHost.pre0_arg1 (F := Ideal) (W0 m ρ c)
  have d2 := KerHost.pre0_arg2 (F := Ideal) (W0 m ρ c)
  have d3 := KerHost.pre0_arg3 (F := Ideal) (W0 m ρ c)
  have d5 := KerHost.pre0_arg5 (F := Ideal) (W0 m ρ c)
  have d6 := KerHost.pre0_arg6 (F := Ideal) (W0 m ρ c)
  rw [e8, e7]
  show Layer2.whole (W7 m ρ c (Proc.devRef .tc main_v40)) (W7 m ρ c (Proc.devRef .tc main_v41))
    (W7 m ρ c (Proc.devRef .tc main_arg5)) (W7 m ρ c (Proc.devRef .tc main_v42)) = _
  rw [show W7 m ρ c (Proc.devRef .tc main_v40) = _ from a40, show W7 m ρ c (Proc.devRef .tc main_v41) = _ from a41,
    show W7 m ρ c (Proc.devRef .tc main_arg5) = _ from a5, show W7 m ρ c (Proc.devRef .tc main_v42) = _ from a42,
    b27, f0, b5, b11, b1, b2, b5', b6]
  show Layer2.whole (Cert.ReferenceIdeal.Spec.aggregate128 (Layer1.whole (W5 m ρ c (Proc.devRef .tc main_v24)) (W5 m ρ c (Proc.devRef .tc main_v25))
      (W5 m ρ c (Proc.devRef .tc main_arg3)) (W5 m ρ c (Proc.devRef .tc main_v26))) (W5 m ρ c (Proc.devRef .tc main_v5))
      (W5 m ρ c (Proc.devRef .tc main_arg1)) (W5 m ρ c (Proc.devRef .tc main_arg2)))
    (shapeCast S100000x1 (W5 m ρ c (Proc.devRef .tc main_v11)) Facts₀.shapeCasts_S100000_S100000x1)
    (W5 m ρ c (Proc.devRef .tc main_arg5))
    (shapeCast S1x128 (W5 m ρ c (Proc.devRef .tc main_arg6)) Facts₀.shapeCasts_S128_S1x128) = _
  rw [show W5 m ρ c (Proc.devRef .tc main_v24) = _ from c24, show W5 m ρ c (Proc.devRef .tc main_v25) = _ from c25,
    show W5 m ρ c (Proc.devRef .tc main_arg3) = _ from d3, show W5 m ρ c (Proc.devRef .tc main_v26) = _ from c26,
    show W5 m ρ c (Proc.devRef .tc main_v5) = _ from c5, show W5 m ρ c (Proc.devRef .tc main_arg1) = _ from d1,
    show W5 m ρ c (Proc.devRef .tc main_arg2) = _ from d2, show W5 m ρ c (Proc.devRef .tc main_v11) = _ from c11,
    show W5 m ρ c (Proc.devRef .tc main_arg5) = _ from d5, show W5 m ρ c (Proc.devRef .tc main_arg6) = _ from d6,
    layer1_eq, layer2_eq]
  rfl

end Cert.KernelIdeal.KerValue

end
-- ==== Proof.lean ====
/-
  The kernel program and its reference compute the same two-layer graph convolution on the extended reals.

  Over N = 100000 nodes and E = 1600000 edges (src[e] → dst[e]), with s = 1 / sqrt (max 1 (out-degree)) and
  n = 1 / sqrt (max 1 (in-degree)):
      h   = leaky ((Agg (x ⊙ s) ⊙ n) · W1 + b1),        out = (Agg (h ⊙ s) ⊙ n) · W2 + b2,
  where Agg gathers rows at the edges' sources and sums them at their destinations, and leaky y = y if y ≥ 0 else c · y.
  Both programs run the same host operations for the degrees, the gathers and the scatter-adds.  The reference computes
  each dense layer as one whole-matrix product; the kernel program computes it in a pipeline over 20 blocks of 5000 rows,
  its operands narrowed to a shorter float format (the identity on the extended reals), its product accumulated into
  zero, its rectifier tested with y > 0 instead of y ≥ 0 (the same function: the two differ only at y = 0, where both
  give 0).  Entry by entry the two are the same sums of the same products, so no law of arithmetic beyond c · 0 = 0 is
  used and the finiteness of the inputs is never needed.

  The three frame claims: the kernel programs' are the generated frames; the reference's is its run with the result
  dropped.  The idealization rewrote nothing, so that claim is trivial.  The equivalence: the kernel program's run with its
  result read back as the specification's function of the arguments, beside the reference's run read back as the same
  function of arguments that agree.
-/
import proofs.«173791_j8589935121_1_alg».proof.Defs
import proofs.«173791_j8589935121_1_alg».proof.Proof.Gen.Kernel
import proofs.«173791_j8589935121_1_alg».proof.Proof.Gen.Kernel.Skeleton
import proofs.«173791_j8589935121_1_alg».proof.Proof.Gen.Kernel.Launch
import proofs.«173791_j8589935121_1_alg».proof.Proof.Gen.Kernel.Points
import proofs.«173791_j8589935121_1_alg».proof.Proof.Gen.Kernel.Frame
import proofs.«173791_j8589935121_1_alg».proof.Proof.Gen.KernelIdeal
import proofs.«173791_j8589935121_1_alg».proof.Proof.Gen.KernelIdeal.Skeleton
import proofs.«173791_j8589935121_1_alg».proof.Proof.Gen.KernelIdeal.Launch
import proofs.«173791_j8589935121_1_alg».proof.Proof.Gen.KernelIdeal.Points
import proofs.«173791_j8589935121_1_alg».proof.Proof.Gen.KernelIdeal.Frame
import proofs.«173791_j8589935121_1_alg».proof.Proof.Gen.ReferenceIdeal
import proofs.«173791_j8589935121_1_alg».proof.Proof.Gen.Pre_finite_inputs
import proofs.«173791_j8589935121_1_alg».proof.Proof.Spec
import proofs.«173791_j8589935121_1_alg».proof.Proof.RefRun
import proofs.«173791_j8589935121_1_alg».proof.Proof.KerRun
import proofs.«173791_j8589935121_1_alg».proof.Proof.KerValue
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and leaves its arguments unchanged: its run, the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- Both programs end with the specification's two-layer function of their (agreeing) arguments. -/
theorem algebraic : Cert.algebraic_KernelIdeal_ReferenceIdeal := by
  intro m ρ m' ρ' _ hagree
  refine ⟨fun c => Cert.ReferenceIdeal.Spec.whole (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.KerValue.value m ρ c), (h c).2⟩)
      (Cert.KernelIdeal.KerRun.run_value (F := Ideal) m ρ)
  · refine (θ_run Cert.ReferenceIdeal.defs _ _).mono (fun _ h c => ⟨(h c).1.trans ?_, (h c).2⟩)
      (Cert.ReferenceIdeal.RefRun.run (F := Ideal) m' ρ')
    obtain ⟨h0, h1, h2, h3, h4, h5, h6⟩ := hagree c
    rw [h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
